-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10x2097152 : Shape := ⟨2, ![10, 2097152]⟩
abbrev S5x10 : Shape := ⟨2, ![5, 10]⟩
abbrev S5 : Shape := ⟨1, ![5]⟩
abbrev S1x5 : Shape := ⟨2, ![1, 5]⟩
abbrev S1 : Shape := ⟨1, ![1]⟩
abbrev S_ : Shape := ⟨0, ![]⟩

class Facts : Prop where
  bcast_S_S10x2097152 : S_.BroadcastsInDim S10x2097152 (![] : Fin 0 → Fin S10x2097152.rank)
  reducesTo_S10x2097152_S_d0_1 : S10x2097152.ReducesTo [0, 1] S_
  h_S_ : 0 < S_.numel
  bcast_S_S5x10 : S_.BroadcastsInDim S5x10 (![] : Fin 0 → Fin S5x10.rank)
  reducesTo_S5x10_S_d0_1 : S5x10.ReducesTo [0, 1] S_
  bcast_S_S5 : S_.BroadcastsInDim S5 (![] : Fin 0 → Fin S5.rank)
  reducesTo_S5_S_d0 : S5.ReducesTo [0] S_
  bcast_S_S1x5 : S_.BroadcastsInDim S1x5 (![] : Fin 0 → Fin S1x5.rank)
  reducesTo_S1x5_S_d0_1 : S1x5.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S1 .f32) (main_v13 : IVec S_ 1) (main_v16 : IVec S1x5 1) : IVec S_ 1 :=
  let main_c_5 : IVec S_ 1 := constantI S_ 1 1#1
  let main_v17 : IVec S_ 1 := (fun x v => Host.reduce IntOp.andi x v reducesTo_S1x5_S_d0_1 h_S_) main_v16 main_c_5
  let main_v18 : IVec S_ 1 := andi main_v13 main_v17
  let main_v19 : FVec F S1 .f32 := Host.absf main_arg4
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  main_v23

def fn {F : FTy → Type} [FloatOps F] (main_arg0 : FVec F S10x2097152 .f32) (main_arg1 : FVec F S5x10 .f32) (main_arg2 : FVec F S5 .f32) (main_arg3 : FVec F S1x5 .f32) (main_arg4 : FVec F S1 .f32) : IVec S_ 1 :=
  let main_v0 : FVec F S10x2097152 .f32 := Host.absf main_arg0
  let main_cst : FVec F S_ .f32 := constant S_ .f32 0x7F800000#32
  let main_v1 : FVec F S10x2097152 .f32 := broadcastInDim S10x2097152 ![] bcast_S_S10x2097152 main_cst
  let main_v2 : IVec S10x2097152 1 := cmpf .olt main_v0 main_v1
  let main_c : IVec S_ 1 := constantI S_ 1 1#1
  let main_v3 : IVec S_ 1 := (fun x v => Host.reduce IntOp.andi x v reducesTo_S10x2097152_S_d0_1 h_S_) main_v2 main_c
  let main_v4 : FVec F S5x10 .f32 := Host.absf main_arg1
  let main_cst_0 : FVec F S_ .f32 := constant S_ .f32 0x7F800000#32
  let main_v5 : FVec F S5x10 .f32 := broadcastInDim S5x10 ![] bcast_S_S5x10 main_cst_0
  let main_v6 : IVec S5x10 1 := cmpf .olt main_v4 main_v5
  let main_c_1 : IVec S_ 1 := constantI S_ 1 1#1
  let main_v7 : IVec S_ 1 := (fun x v => Host.reduce IntOp.andi x v reducesTo_S5x10_S_d0_1 h_S_) main_v6 main_c_1
  let main_v8 : IVec S_ 1 := andi main_v3 main_v7
  let main_v9 : FVec F S5 .f32 := Host.absf main_arg2
  let main_cst_2 : FVec F S_ .f32 := constant S_ .f32 0x7F800000#32
  let main_v10 : FVec F S5 .f32 := broadcastInDim S5 ![] bcast_S_S5 main_cst_2
  let main_v11 : IVec S5 1 := cmpf .olt main_v9 main_v10
  let main_c_3 : IVec S_ 1 := constantI S_ 1 1#1
  let main_v12 : IVec S_ 1 := (fun x v => Host.reduce IntOp.andi x v reducesTo_S5_S_d0 h_S_) main_v11 main_c_3
  let main_v13 : IVec S_ 1 := andi main_v8 main_v12
  let main_v14 : FVec F S1x5 .f32 := Host.absf main_arg3
  let main_cst_4 : FVec F S_ .f32 := constant S_ .f32 0x7F800000#32
  let main_v15 : FVec F S1x5 .f32 := broadcastInDim S1x5 ![] bcast_S_S1x5 main_cst_4
  let main_v16 : IVec S1x5 1 := cmpf .olt main_v14 main_v15
  fn_part1 (F := F) main_arg4 main_v13 main_v16
-- ==== Kernel.lean ====
abbrev S10x2097152 : Shape := ⟨2, ![10, 2097152]⟩
abbrev S5x10 : Shape := ⟨2, ![5, 10]⟩
abbrev S5 : Shape := ⟨1, ![5]⟩
abbrev S1x5 : Shape := ⟨2, ![1, 5]⟩
abbrev S1 : Shape := ⟨1, ![1]⟩
abbrev S1x1 : Shape := ⟨2, ![1, 1]⟩
abbrev S1x2097152 : Shape := ⟨2, ![1, 2097152]⟩
abbrev S8x131072 : Shape := ⟨2, ![8, 131072]⟩
abbrev S1x131072 : Shape := ⟨2, ![1, 131072]⟩
abbrev S5x8 : Shape := ⟨2, ![5, 8]⟩
abbrev S5x131072 : Shape := ⟨2, ![5, 131072]⟩
abbrev S5x2 : Shape := ⟨2, ![5, 2]⟩
abbrev S2x131072 : Shape := ⟨2, ![2, 131072]⟩
abbrev S5x1 : Shape := ⟨2, ![5, 1]⟩

abbrev nBuf : Space → Nat
  | .hbm => 8
  | .vmem => 10
  | .smem => 0
  | _ => 0

abbrev bufTy : (tb : Table) → Fin (tcTables nBuf tb) → BufTy
  | .hbm, ⟨0, _⟩ => ⟨S10x2097152, .f32⟩
  | .hbm, ⟨1, _⟩ => ⟨S5x10, .f32⟩
  | .hbm, ⟨2, _⟩ => ⟨S5, .f32⟩
  | .hbm, ⟨3, _⟩ => ⟨S1x5, .f32⟩
  | .hbm, ⟨4, _⟩ => ⟨S1, .f32⟩
  | .hbm, ⟨5, _⟩ => ⟨S1x5, .f32⟩
  | .hbm, ⟨6, _⟩ => ⟨S1x1, .f32⟩
  | .hbm, ⟨7, _⟩ => ⟨S1x2097152, .f32⟩
  | .local _ .vmem, ⟨0, _⟩ => ⟨S5x10, .f32⟩
  | .local _ .vmem, ⟨1, _⟩ => ⟨S1x5, .f32⟩
  | .local _ .vmem, ⟨2, _⟩ => ⟨S1x5, .f32⟩
  | .local _ .vmem, ⟨3, _⟩ => ⟨S1x1, .f32⟩
  | .local _ .vmem, ⟨4, _⟩ => ⟨S8x131072, .f32⟩
  | .local _ .vmem, ⟨5, _⟩ => ⟨S8x131072, .f32⟩
  | .local _ .vmem, ⟨6, _⟩ => ⟨S8x131072, .f32⟩
  | .local _ .vmem, ⟨7, _⟩ => ⟨S8x131072, .f32⟩
  | .local _ .vmem, ⟨8, _⟩ => ⟨S1x131072, .f32⟩
  | .local _ .vmem, ⟨9, _⟩ => ⟨S1x131072, .f32⟩
  | _, _ => ⟨S10x2097152, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem5_1 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c1_i32 : BitVec 32 := 1#32
  let c0_i32 : BitVec 32 := 0#32
  ![c1_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S5x10 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x5 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x5 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S8x131072 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x131072 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x131072 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  shapeCasts_S5_S1x5 : S5.ShapeCasts S1x5
  shapeCasts_S1_S1x1 : S1.ShapeCasts S1x1
  inb_S5x10_S5x8_0_0 : ∀ a, (![0, 0] : Fin 2 → Nat) a + S5x8.size a ≤ S5x10.size a
  h_S5x8 : 0 < S5x8.numel
  inb_S8x131072_S8x131072_0_0 : ∀ a, (![0, 0] : Fin 2 → Nat) a + S8x131072.size a ≤ S8x131072.size a
  h_S8x131072 : 0 < S8x131072.numel
  inb_S5x10_S5x2_0_8 : ∀ a, (![0, 8] : Fin 2 → Nat) a + S5x2.size a ≤ S5x10.size a
  h_S5x2 : 0 < S5x2.numel
  inb_S8x131072_S2x131072_0_0 : ∀ a, (![0, 0] : Fin 2 → Nat) a + S2x131072.size a ≤ S8x131072.size a
  h_S2x131072 : 0 < S2x131072.numel
  inb_S1x5_S1x5_0_0 : ∀ a, (![0, 0] : Fin 2 → Nat) a + S1x5.size a ≤ S1x5.size a
  h_S1x5 : 0 < S1x5.numel
  shapeCasts_S1x5_S1x5 : S1x5.ShapeCasts S1x5
  transposes_S1x5_p1_0_S5x1 : S1x5.Transposes [1, 0] S5x1
  broadcasts_S5x1_S5x131072 : S5x1.Broadcasts S5x131072
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S1x131072 : S1x1.Broadcasts S1x131072
  inb_S1x131072_S1x131072_0_0 : ∀ a, (![0, 0] : Fin 2 → Nat) a + S1x131072.size a ≤ S1x131072.size a
  h_S1x131072 : 0 < S1x131072.numel
  dot_S5x8_S8x131072_S5x131072_1_0_0_1_n_n_wf : DotDims.WF S5x8 S8x131072 S5x131072 [1] [0] [0] [1] [] []
  dot_S5x2_S2x131072_S5x131072_1_0_0_1_n_n_wf : DotDims.WF S5x2 S2x131072 S5x131072 [1] [0] [0] [1] [] []
  dot_S1x5_S5x131072_S1x131072_1_0_0_1_n_n_wf : DotDims.WF S1x5 S5x131072 S1x131072 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S5x10.size a ≤ S5x10.size a
  hwx0_0 : ∀ i : grid0.Coords, EltTy.bits .f32 = 32 ∨ (Rect.block (s := S5x10) S5x10.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x5.size a ≤ S1x5.size a
  hwx0_1 : ∀ i : grid0.Coords, EltTy.bits .f32 = 32 ∨ (Rect.block (s := S1x5) S1x5.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x5.size a ≤ S1x5.size a
  hwx0_2 : ∀ i : grid0.Coords, EltTy.bits .f32 = 32 ∨ (Rect.block (s := S1x5) S1x5.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hstart0_4 : ∀ (i : grid0.Coords) a, cc0_transform_4 i a * S8x131072.size a < S10x2097152.size a
  hwx0_4 : ∀ i : grid0.Coords, EltTy.bits .f32 = 32 ∨ (Rect.unit (s := S10x2097152) (fun a => cc0_transform_4 i a * S8x131072.size a) (fun a => (Pipeline.Clip.of (cc0_transform_4 i a) (S8x131072.size a) (S10x2097152.size a)).extent (S8x131072.size a)) fun a => Pipeline.Clip.inb (Pipeline.Clip.ok_of (hstart0_4 i a))).WholeWords (EltTy.packing .f32)
  hwxs0_4 : ∀ i : grid0.Coords, EltTy.bits .f32 = 32 ∨ (Rect.unit (s := S8x131072) (fun _ => 0) (fun a => (Pipeline.Clip.of (cc0_transform_4 i a) (S8x131072.size a) (S10x2097152.size a)).extent (S8x131072.size a)) fun a => (Nat.zero_add _).trans_le (Pipeline.Clip.extent_le (Pipeline.Clip.ok_of (hstart0_4 i a)))).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hstart0_5 : ∀ (i : grid0.Coords) a, cc0_transform_5 i a * S8x131072.size a < S10x2097152.size a
  hwx0_5 : ∀ i : grid0.Coords, EltTy.bits .f32 = 32 ∨ (Rect.unit (s := S10x2097152) (fun a => cc0_transform_5 i a * S8x131072.size a) (fun a => (Pipeline.Clip.of (cc0_transform_5 i a) (S8x131072.size a) (S10x2097152.size a)).extent (S8x131072.size a)) fun a => Pipeline.Clip.inb (Pipeline.Clip.ok_of (hstart0_5 i a))).WholeWords (EltTy.packing .f32)
  hwxs0_5 : ∀ i : grid0.Coords, EltTy.bits .f32 = 32 ∨ (Rect.unit (s := S8x131072) (fun _ => 0) (fun a => (Pipeline.Clip.of (cc0_transform_5 i a) (S8x131072.size a) (S10x2097152.size a)).extent (S8x131072.size a)) fun a => (Nat.zero_add _).trans_le (Pipeline.Clip.extent_le (Pipeline.Clip.ok_of (hstart0_5 i a)))).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x131072.size a ≤ S1x2097152.size a
  hwx0_6 : ∀ i : grid0.Coords, EltTy.bits .f32 = 32 ∨ (Rect.block (s := S1x2097152) S1x131072.size (cc0_transform_6 i) (hinb0_6 i)).WholeWords (EltTy.packing .f32)

variable [Facts₀]

def dot_S5x8_S8x131072_S5x131072_1_0_0_1_n_n : DotDims S5x8 S8x131072 S5x131072 where
  lhsContracting := [1]
  rhsContracting := [0]
  lhsNonContracting := [0]
  rhsNonContracting := [1]
  lhsBatch := []
  rhsBatch := []
  wf := dot_S5x8_S8x131072_S5x131072_1_0_0_1_n_n_wf
def dot_S5x2_S2x131072_S5x131072_1_0_0_1_n_n : DotDims S5x2 S2x131072 S5x131072 where
  lhsContracting := [1]
  rhsContracting := [0]
  lhsNonContracting := [0]
  rhsNonContracting := [1]
  lhsBatch := []
  rhsBatch := []
  wf := dot_S5x2_S2x131072_S5x131072_1_0_0_1_n_n_wf
def dot_S1x5_S5x131072_S1x131072_1_0_0_1_n_n : DotDims S1x5 S5x131072 S1x131072 where
  lhsContracting := [1]
  rhsContracting := [0]
  lhsNonContracting := [0]
  rhsNonContracting := [1]
  lhsBatch := []
  rhsBatch := []
  wf := dot_S1x5_S5x131072_S1x131072_1_0_0_1_n_n_wf

abbrev win0_0 : Pipeline.Window sig grid0 :=
  Pipeline.Window.ofSpec (Memref.whole main_arg1) S5x10.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x5.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S1x5.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpecClip (Memref.whole main_arg0) S8x131072.size cc0_transform_4 reads0_4 false false 2 stage0_4 sem0_4
    hrank0 hreads0_4 hstart0_4 nbuf0_4 (Memref.isWhole_whole _) hwx0_4 hwxs0_4 hstage0_4

abbrev win0_5 : Pipeline.Window sig grid0 :=
  Pipeline.Window.ofSpecClip (Memref.whole main_arg0) S8x131072.size cc0_transform_5 reads0_5 false false 2 stage0_5 sem0_5
    hrank0 hreads0_5 hstart0_5 nbuf0_5 (Memref.isWhole_whole _) hwx0_5 hwxs0_5 hstage0_5

abbrev win0_6 : Pipeline.Window sig grid0 :=
  Pipeline.Window.ofSpec (Memref.whole main_v2) S1x131072.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S10x2097152 : Shape := ⟨2, ![10, 2097152]⟩
abbrev S5x10 : Shape := ⟨2, ![5, 10]⟩
abbrev S5 : Shape := ⟨1, ![5]⟩
abbrev S1x5 : Shape := ⟨2, ![1, 5]⟩
abbrev S1 : Shape := ⟨1, ![1]⟩
abbrev S_ : Shape := ⟨0, ![]⟩
abbrev S8x128 : Shape := ⟨2, ![8, 128]⟩
abbrev S2 : Shape := ⟨1, ![2]⟩
abbrev S1x2097152 : Shape := ⟨2, ![1, 2097152]⟩
abbrev S10x65536 : Shape := ⟨2, ![10, 65536]⟩
abbrev S1x65536 : Shape := ⟨2, ![1, 65536]⟩
abbrev S8x10 : Shape := ⟨2, ![8, 10]⟩
abbrev S8x1 : Shape := ⟨2, ![8, 1]⟩
abbrev S1x1 : Shape := ⟨2, ![1, 1]⟩
abbrev S8x65536 : Shape := ⟨2, ![8, 65536]⟩
abbrev S65536 : Shape := ⟨1, ![65536]⟩

abbrev nBuf : Space → Nat
  | .hbm => 34
  | .vmem => 5
  | .smem => 0
  | _ => 0

abbrev bufTy : (tb : Table) → Fin (tcTables nBuf tb) → BufTy
  | .hbm, ⟨0, _⟩ => ⟨S10x2097152, .f32⟩
  | .hbm, ⟨1, _⟩ => ⟨S5x10, .f32⟩
  | .hbm, ⟨2, _⟩ => ⟨S5, .f32⟩
  | .hbm, ⟨3, _⟩ => ⟨S1x5, .f32⟩
  | .hbm, ⟨4, _⟩ => ⟨S1, .f32⟩
  | .hbm, ⟨5, _⟩ => ⟨S_, .f32⟩
  | .hbm, ⟨6, _⟩ => ⟨S8x128, .f32⟩
  | .hbm, ⟨7, _⟩ => ⟨S_, .i32⟩
  | .hbm, ⟨8, _⟩ => ⟨S1, .i32⟩
  | .hbm, ⟨9, _⟩ => ⟨S_, .i32⟩
  | .hbm, ⟨10, _⟩ => ⟨S1, .i32⟩
  | .hbm, ⟨11, _⟩ => ⟨S2, .i32⟩
  | .hbm, ⟨12, _⟩ => ⟨S8x128, .f32⟩
  | .hbm, ⟨13, _⟩ => ⟨S_, .i32⟩
  | .hbm, ⟨14, _⟩ => ⟨S1, .i32⟩
  | .hbm, ⟨15, _⟩ => ⟨S_, .i32⟩
  | .hbm, ⟨16, _⟩ => ⟨S1, .i32⟩
  | .hbm, ⟨17, _⟩ => ⟨S2, .i32⟩
  | .hbm, ⟨18, _⟩ => ⟨S8x128, .f32⟩
  | .hbm, ⟨19, _⟩ => ⟨S5, .f32⟩
  | .hbm, ⟨20, _⟩ => ⟨S_, .i32⟩
  | .hbm, ⟨21, _⟩ => ⟨S1, .i32⟩
  | .hbm, ⟨22, _⟩ => ⟨S_, .i32⟩
  | .hbm, ⟨23, _⟩ => ⟨S1, .i32⟩
  | .hbm, ⟨24, _⟩ => ⟨S2, .i32⟩
  | .hbm, ⟨25, _⟩ => ⟨S8x128, .f32⟩
  | .hbm, ⟨26, _⟩ => ⟨S_, .f32⟩
  | .hbm, ⟨27, _⟩ => ⟨S_, .i32⟩
  | .hbm, ⟨28, _⟩ => ⟨S1, .i32⟩
  | .hbm, ⟨29, _⟩ => ⟨S_, .i32⟩
  | .hbm, ⟨30, _⟩ => ⟨S1, .i32⟩
  | .hbm, ⟨31, _⟩ => ⟨S2, .i32⟩
  | .hbm, ⟨32, _⟩ => ⟨S8x128, .f32⟩
  | .hbm, ⟨33, _⟩ => ⟨S1x2097152, .f32⟩
  | .local _ .vmem, ⟨0, _⟩ => ⟨S8x128, .f32⟩
  | .local _ .vmem, ⟨1, _⟩ => ⟨S10x65536, .f32⟩
  | .local _ .vmem, ⟨2, _⟩ => ⟨S10x65536, .f32⟩
  | .local _ .vmem, ⟨3, _⟩ => ⟨S1x65536, .f32⟩
  | .local _ .vmem, ⟨4, _⟩ => ⟨S1x65536, .f32⟩
  | _, _ => ⟨S10x2097152, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_c_1 : Ref sig .tc := ⟨.hbm, 13, rfl⟩
abbrev main_v5 : Ref sig .tc := ⟨.hbm, 14, rfl⟩
abbrev main_c_2 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_c_3 : Ref sig .tc := ⟨.hbm, 20, rfl⟩
abbrev main_v10 : Ref sig .tc := ⟨.hbm, 21, rfl⟩
abbrev main_c_4 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_c_5 : Ref sig .tc := ⟨.hbm, 27, rfl⟩
abbrev main_v15 : Ref sig .tc := ⟨.hbm, 28, rfl⟩
abbrev main_c_6 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S8x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S10x65536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x65536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bcast_S_S8x128 : S_.BroadcastsInDim S8x128 (![] : Fin 0 → Fin S8x128.rank)
  bcast_S_S1 : S_.BroadcastsInDim S1 (![] : Fin 0 → Fin S1.rank)
  concatenates_S1_S1_S2_d0 : Shape.Concatenates [S1, S1] S2 0
  shapeCasts_S1x5_S5 : S1x5.ShapeCasts S5
  shapeCasts_S1_S_ : S1.ShapeCasts S_
  inb_S10x65536_S10x65536_0_0 : ∀ a, (![0, 0] : Fin 2 → Nat) a + S10x65536.size a ≤ S10x65536.size a
  h_S10x65536 : 0 < S10x65536.numel
  inb_S8x128_S8x10_0_0 : ∀ a, (![0, 0] : Fin 2 → Nat) a + S8x10.size a ≤ S8x128.size a
  h_S8x10 : 0 < S8x10.numel
  shapeCasts_S8x10_S8x10 : S8x10.ShapeCasts S8x10
  inb_S8x128_S8x1_0_10 : ∀ a, (![0, 10] : Fin 2 → Nat) a + S8x1.size a ≤ S8x128.size a
  h_S8x1 : 0 < S8x1.numel
  shapeCasts_S8x1_S8x1 : S8x1.ShapeCasts S8x1
  inb_S8x128_S8x1_0_11 : ∀ a, (![0, 11] : Fin 2 → Nat) a + S8x1.size a ≤ S8x128.size a
  inb_S8x128_S1x1_0_12 : ∀ a, (![0, 12] : Fin 2 → Nat) a + S1x1.size a ≤ S8x128.size a
  h_S1x1 : 0 < S1x1.numel
  shapeCasts_S1x1_S1x1 : S1x1.ShapeCasts S1x1
  broadcasts_S8x1_S8x65536 : S8x1.Broadcasts S8x65536
  reduces_S8x65536_S65536 : S8x65536.Reduces [0] S65536
  shapeCasts_S65536_S1x65536 : S65536.ShapeCasts S1x65536
  broadcasts_S1x1_S1x65536 : S1x1.Broadcasts S1x65536
  inb_S1x65536_S1x65536_0_0 : ∀ a, (![0, 0] : Fin 2 → Nat) a + S1x65536.size a ≤ S1x65536.size a
  h_S1x65536 : 0 < S1x65536.numel
  scatter_S8x128_S2_S5x10_01_n_01_0_wf : ScatterDims.WF S8x128 S2 S5x10 [0, 1] [] [0, 1] 0
  scatter_S8x128_S2_S5_0_1_01_0_wf : ScatterDims.WF S8x128 S2 S5 [0] [1] [0, 1] 0
  scatter_S8x128_S2_S__n_01_01_0_wf : ScatterDims.WF S8x128 S2 S_ [] [0, 1] [0, 1] 0
  dot_S8x10_S10x65536_S8x65536_1_0_0_1_n_n_wf : DotDims.WF S8x10 S10x65536 S8x65536 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S8x128.size a ≤ S8x128.size a
  hwx0_0 : ∀ i : grid0.Coords, EltTy.bits .f32 = 32 ∨ (Rect.block (s := S8x128) S8x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10x65536.size a ≤ S10x2097152.size a
  hwx0_1 : ∀ i : grid0.Coords, EltTy.bits .f32 = 32 ∨ (Rect.block (s := S10x2097152) S10x65536.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x65536.size a ≤ S1x2097152.size a
  hwx0_2 : ∀ i : grid0.Coords, EltTy.bits .f32 = 32 ∨ (Rect.block (s := S1x2097152) S1x65536.size (cc0_transform_2 i) (hinb0_2 i)).WholeWords (EltTy.packing .f32)

variable [Facts₀]

def scatter_S8x128_S2_S5x10_01_n_01_0 : ScatterDims S8x128 S2 S5x10 where
  updateWindowDims := [0, 1]
  insertedWindowDims := []
  scatterDimsToOperandDims := [0, 1]
  indexVectorDim := 0
  wf := scatter_S8x128_S2_S5x10_01_n_01_0_wf
def scatter_S8x128_S2_S5_0_1_01_0 : ScatterDims S8x128 S2 S5 where
  updateWindowDims := [0]
  insertedWindowDims := [1]
  scatterDimsToOperandDims := [0, 1]
  indexVectorDim := 0
  wf := scatter_S8x128_S2_S5_0_1_01_0_wf
def scatter_S8x128_S2_S__n_01_01_0 : ScatterDims S8x128 S2 S_ where
  updateWindowDims := []
  insertedWindowDims := [0, 1]
  scatterDimsToOperandDims := [0, 1]
  indexVectorDim := 0
  wf := scatter_S8x128_S2_S__n_01_01_0_wf
def dot_S8x10_S10x65536_S8x65536_1_0_0_1_n_n : DotDims S8x10 S10x65536 S8x65536 where
  lhsContracting := [1]
  rhsContracting := [0]
  lhsNonContracting := [0]
  rhsNonContracting := [1]
  lhsBatch := []
  rhsBatch := []
  wf := dot_S8x10_S10x65536_S8x65536_1_0_0_1_n_n_wf

abbrev win0_0 : Pipeline.Window sig grid0 :=
  Pipeline.Window.ofSpec (Memref.whole main_v18) S8x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S10x65536.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v19) S1x65536.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== Proof.KernelBody.lean ====
/-
  The kernel body of the streamed two-layer network, run once on whole staging buffers.

  The body reads the 5x10 weight matrix as its columns 0..7 and 8..9, the batch tile of the activations as its
  feature rows 0..7 (one staged block) and 8..9 (the first two rows of a second staged block of the same array),
  the two biases and the read-out row, and stores ONE value into the output's staged block: the payload of those
  seven loads.  This module states what the output's staging buffer holds afterwards as a function of what the six
  input buffers held, proves the body's triple, and records the program up to the region: the two reshapes of the
  biases that precede it.
-/
import proofs.«153465_g2000604993931757_pallaspilot1_154_16_alg».proof.Proof.Gen.Kernel.Launch
import proofs.«153465_g2000604993931757_pallaspilot1_154_16_alg».proof.Proof.Gen.Kernel.Skeleton
import proofs.«153465_g2000604993931757_pallaspilot1_154_16_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to the region -/

/-- The core's buffers when the region is entered: the two bias vectors reshaped to a row and to a 1x1 matrix. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- The program is the two reshapes, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- Neither reshape writes an argument array: the region finds each as launched. -/
theorem V_arg (c : Dev nD) (b : Ref sig .tc) (h0 : b ≠ main_v0) (h1 : b ≠ main_v1) : V m c b = m ((c : Thread nD τ).loc b) :=
  StableHlo.after_of_forall_not_mem (b := Proc.devRef .tc b) _ _ (List.forall_iff_forall_mem.mp (by
    simp only [hostOps0, List.Forall, StableHlo.reshape_writes, Finset.mem_singleton]
    exact ⟨StableHlo.devRef_ne_of_ne h0, StableHlo.devRef_ne_of_ne h1⟩))

theorem V_main_arg0 (c : Dev nD) : V m c main_arg0 = m ((c : Thread nD τ).loc main_arg0) := V_arg m c _ (by decide) (by decide)
theorem V_main_arg1 (c : Dev nD) : V m c main_arg1 = m ((c : Thread nD τ).loc main_arg1) := V_arg m c _ (by decide) (by decide)
theorem V_main_arg2 (c : Dev nD) : V m c main_arg2 = m ((c : Thread nD τ).loc main_arg2) := V_arg m c _ (by decide) (by decide)
theorem V_main_arg3 (c : Dev nD) : V m c main_arg3 = m ((c : Thread nD τ).loc main_arg3) := V_arg m c _ (by decide) (by decide)
theorem V_main_arg4 (c : Dev nD) : V m c main_arg4 = m ((c : Thread nD τ).loc main_arg4) := V_arg m c _ (by decide) (by decide)

/-! ## The body's accesses -/

abbrev rW1a : Rect S5x10 := Rect.unit (s := S5x10) ![0, 0] S5x8.size inb_S5x10_S5x8_0_0
abbrev rXa : Rect S8x131072 := Rect.unit (s := S8x131072) ![0, 0] S8x131072.size inb_S8x131072_S8x131072_0_0
abbrev rW1b : Rect S5x10 := Rect.unit (s := S5x10) ![0, 8] S5x2.size inb_S5x10_S5x2_0_8
abbrev rXb : Rect S8x131072 := Rect.unit (s := S8x131072) ![0, 0] S2x131072.size inb_S8x131072_S2x131072_0_0
abbrev rRow : Rect S1x5 := Rect.unit (s := S1x5) ![0, 0] S1x5.size inb_S1x5_S1x5_0_0
abbrev rOne : Rect S1x1 := Rect.unit (s := S1x1) ![0, 0] S1x1.size inb_S1x1_S1x1_0_0
abbrev rOut : Rect S1x131072 := Rect.unit (s := S1x131072) ![0, 0] S1x131072.size inb_S1x131072_S1x131072_0_0

/-- What the output's staging buffer holds after the body, from the contents of the six input buffers: the one
    store's payload, over the whole buffer. -/
def outBlk (x0 : Vec F S5x10 .f32) (x1 : Vec F S1x5 .f32) (x2 : Vec F S1x5 .f32) (x3 : Vec F S1x1 .f32)
    (x4 : Vec F S8x131072 .f32) (x5 : Vec F S8x131072 .f32) : Vec F S1x131072 .f32 :=
  View.canon [⟨rOut, k0_pay1 (View.ld x0 rW1a) (View.ld x4 rXa) (View.ld x0 rW1b) (View.ld x5 rXb) (View.ld x1 rRow) (View.ld x2 rRow) (View.ld x3 rOne)⟩]

/-- The store covers the buffer. -/
theorem cover_out (p0 : Vec F S1x131072 .f32) (y : S1x131072.Idx) :
    ∃ pc ∈ ([⟨rOut, p0⟩] : List (View.Piece (Elt F) S1x131072 .f32)), y ∈ pc.1.set :=
  View.cover_of_tiled [⟨rOut, p0⟩] S1x131072.size (by rfl) y

/-! ## The body's triple -/

set_option maxHeartbeats 1000000 in
/-- The body on whole staging memrefs, the inputs' at contents `x0 … x5` and the output's at anything, runs to the
    continuation with the inputs' as they were and the output's at `outBlk` of them. -/
theorem sound_kernel (c : Dev nD) (E : Set ℕ) (i : grid0.Coords)
    (arg1 : Memref sig .tc .vmem S5x10 .f32) (harg1 : arg1.IsWhole) (arg2 : Memref sig .tc .vmem S1x5 .f32) (harg2 : arg2.IsWhole)
    (arg3 : Memref sig .tc .vmem S1x5 .f32) (harg3 : arg3.IsWhole) (arg4 : Memref sig .tc .vmem S1x1 .f32) (harg4 : arg4.IsWhole)
    (arg5 : Memref sig .tc .vmem S8x131072 .f32) (harg5 : arg5.IsWhole) (arg6 : Memref sig .tc .vmem S8x131072 .f32) (harg6 : arg6.IsWhole)
    (arg7 : Memref sig .tc .vmem S1x131072 .f32) (harg7 : arg7.IsWhole)
    (x0 : Vec F S5x10 .f32) (x1 : Vec F S1x5 .f32) (x2 : Vec F S1x5 .f32) (x3 : Vec F S1x1 .f32)
    (x4 : Vec F S8x131072 .f32) (x5 : Vec F S8x131072 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (outBlk x0 x1 x2 x3 x4 x5)) -∗ K ⟨⟩))
      ⊢ wp frame (wpE (defs₀ (F := F)) Variants.none c none) E
          (cc0__mlp_stream_kernel i arg1 harg1 arg2 harg2 arg3 harg3 arg4 harg4 arg5 harg5 arg6 harg6 arg7 harg7) K := by
  simp only [cc0__mlp_stream_kernel_eq_skeleton]; unfold cc0__mlp_stream_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover_out _)

end Cert.Kernel.Hand

end
-- ==== Proof.KernelData.lean ====
/-
  The proof data of the streamed network's one pipelined region, and the body's obligation at every grid point.

  The region has seven windows.  Four are the small parameter arrays, fetched once.  Two read the SAME activation
  array: one its feature rows 0..7 in tiles of 131072 batch columns, the other the tile of rows 8..15 of the same
  columns — an array of ten rows, so only the tile's rows 0..1 come from the array and what lies below them in the
  staging buffer is whatever the fetch left there.  The seventh is the output row, one tile per point.  The body
  reads only rows 0..1 of the overhanging tile, so what it stores does not depend on the unnamed rows: that is
  `outBlk_fill`.
-/
import proofs.«153465_g2000604993931757_pallaspilot1_154_16_alg».proof.Proof.KernelBody

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The windows' blocks -/

/-- Window `w`'s block at point `t`, read off its array as the region finds it: the part of the tile inside the array. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The tile of rows 0..7 lies inside the ten-row array at every point: the whole staging buffer is fetched. -/
theorem xsize4 : ∀ (t : Fin cfg0.N) (a : Fin 2), win0_4.xsize (grid0.coords t) a = S8x131072.size a :=
  (by decide +kernel : ∀ (t : Fin grid0.N) (a : Fin 2), win0_4.xsize (grid0.coords t) a = S8x131072.size a)

/-- Of the tile of rows 8..15 the array has rows 8 and 9: the fetch fills the buffer's rows 0..1, all columns. -/
theorem xsize5 : ∀ t : Fin cfg0.N, win0_5.xsize (grid0.coords t) (0 : Fin 2) = 2 ∧ win0_5.xsize (grid0.coords t) (1 : Fin 2) = 131072 :=
  (by decide +kernel : ∀ t : Fin grid0.N, win0_5.xsize (grid0.coords t) (0 : Fin 2) = 2 ∧ win0_5.xsize (grid0.coords t) (1 : Fin 2) = 131072)

/-- On an element the fetch fills, a filled buffer does not depend on what it held before. -/
theorem fill_congr_of_moved {G : Pipeline.Grid} (w : Window sig G) {α : Type} (i : G.Coords) (d d' : w.block.Idx → α)
    (g : (w.xblock i).Idx → α) (j : w.block.Idx) (h : w.moved i j = true) : w.fill i d g j = w.fill i d' g j := by
  unfold Window.fill; rw [dif_pos h, dif_pos h]

theorem moved4 (t : Fin cfg0.N) (j : win0_4.block.Idx) : win0_4.moved (grid0.coords t) j = true :=
  (win0_4.moved_iff _ j).mpr fun a => by rw [xsize4 t a]; exact (j a).isLt

theorem fill4_congr (t : Fin cfg0.N) (d d' : Vec F S8x131072 .f32) (g) :
    (win0_4.fill (grid0.coords t) d g : Vec F S8x131072 .f32) = win0_4.fill (grid0.coords t) d' g :=
  funext fun j => fill_congr_of_moved win0_4 _ d d' g j (moved4 t j)

/-- Rows 0..1 of the overhanging tile's buffer are what the fetch put there. -/
theorem ld5_congr (t : Fin cfg0.N) (d d' : Vec F S8x131072 .f32) (g) :
    View.ld (win0_5.fill (grid0.coords t) d g : Vec F S8x131072 .f32) rXb = View.ld (win0_5.fill (grid0.coords t) d' g : Vec F S8x131072 .f32) rXb := by
  funext x
  refine fill_congr_of_moved win0_5 _ d d' g _ ((win0_5.moved_iff _ _).mpr fun a => ?_)
  have h0 : (x 0).val < 2 := (x 0).isLt
  have h1 : (x 1).val < 131072 := (x 1).isLt
  match a with
  | ⟨0, _⟩ =>
    show (rXb.emb x (0 : Fin 2)).val < win0_5.xsize (grid0.coords t) (0 : Fin 2)
    rw [(xsize5 t).1, Rect.emb_apply]; show 0 + 1 * (x 0).val < 2; omega
  | ⟨1, _⟩ =>
    show (rXb.emb x (1 : Fin 2)).val < win0_5.xsize (grid0.coords t) (1 : Fin 2)
    rw [(xsize5 t).2, Rect.emb_apply]; show 0 + 1 * (x 1).val < 131072; omega

/-- So what the body stores does not depend on what the two activation buffers held outside the fetched parts. -/
theorem outBlk_fill (t : Fin cfg0.N) (x0 : Vec F S5x10 .f32) (x1 x2 : Vec F S1x5 .f32) (x3 : Vec F S1x1 .f32)
    (d4 d4' d5 d5' : Vec F S8x131072 .f32) (g4) (g5) :
    outBlk x0 x1 x2 x3 (win0_4.fill (grid0.coords t) d4 g4) (win0_5.fill (grid0.coords t) d5 g5)
      = outBlk x0 x1 x2 x3 (win0_4.fill (grid0.coords t) d4' g4) (win0_5.fill (grid0.coords t) d5' g5) := by
  unfold outBlk
  rw [fill4_congr t d4 d4' g4]
  erw [ld5_congr t d5 d5' g5]
  rfl

/-! ## The proof data -/

/-- The filler of the unnamed rows in the proof data: the zero word (nothing reads it). -/
abbrev zpad : Vec F S8x131072 .f32 := fun _ => Scalar.ofBits .f32 0#32

/-- The two activation buffers after the body: the fetched parts, filled out with the filler. -/
def xa (c : Dev nD) (t : Fin cfg0.N) : Vec F S8x131072 .f32 := win0_4.fill (grid0.coords t) zpad (iblk m c 4 t)
def xb (c : Dev nD) (t : Fin cfg0.N) : Vec F S8x131072 .f32 := win0_5.fill (grid0.coords t) zpad (iblk m c 5 t)

/-- The proof data: the arrays as the region finds them; after the body each parameter buffer at its block, the two
    activation buffers at their fetched parts, the output's at the body's payload of those; the one activation
    array lent to its two windows in halves; nothing carried between points, nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => xa m c t
    | ⟨5, _⟩ => xb m c t
    | ⟨6, _⟩ => outBlk (iblk m c 0 t) (iblk m c 1 t) (iblk m c 2 t) (iblk m c 3 t) (xa m c t) (xb m c t)
  Φ _ := iprop(emp)
  q w := match w with
    | ⟨4, _⟩ => fullShare.left
    | ⟨5, _⟩ => fullShare.right
    | _ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = xa m c t := by dsimp only [dats]
theorem after0_5 (c : Dev nD) (t : Fin cfg0.N) : (dats m 0 c).after 5 t = xb m c t := by dsimp only [dats]
theorem after0_6 (c : Dev nD) (t : Fin cfg0.N) :
    (dats m 0 c).after 6 t = outBlk (iblk m c 0 t) (iblk m c 1 t) (iblk m c 2 t) (iblk m c 3 t) (xa m c t) (xb m c t) := by dsimp only [dats]

/-! ## What the body finds -/

/-- A parameter window's buffer holds its block at every point, fetched there or not. -/
theorem before_param (c : Dev nD) (w : Fin cfg0.W) (hw : (cfg0.win w).isOut = false)
    (hclip : ∀ t t' : Fin cfg0.N, (cfg0.win w).index t = (cfg0.win w).index t' →
      (cfg0.win w).clip (cfg0.grid.coords t) = (cfg0.win w).clip (cfg0.grid.coords t'))
    (hkeep : ∀ t, (cfg0.win w).cut (cfg0.grid.coords t) ((dats m 0 c).after w t) = iblk m c w t)
    (t : Fin cfg0.N) (d) : (dats m 0 c).before w t d = (cfg0.win w).fill (cfg0.grid.coords t) d (iblk m c w t) :=
  ((dats m 0 c).before_in_eq_fetched w hw (fun _ => rfl) hclip (fun t => by rw [hkeep]; unfold Dat.blockOf iblk; rw [A_eq]) t d).trans
    (by unfold Dat.fetched Dat.blockOf iblk; rw [A_eq])

theorem before0_0 (c : Dev nD) (t : Fin cfg0.N) (d) : (dats m 0 c).before 0 t d = iblk m c 0 t :=
  before_param m c 0 rfl (fun _ _ _ => rfl) (fun t => by rw [after0_0]) t d
theorem before0_1 (c : Dev nD) (t : Fin cfg0.N) (d) : (dats m 0 c).before 1 t d = iblk m c 1 t :=
  before_param m c 1 rfl (fun _ _ _ => rfl) (fun t => by rw [after0_1]) t d
theorem before0_2 (c : Dev nD) (t : Fin cfg0.N) (d) : (dats m 0 c).before 2 t d = iblk m c 2 t :=
  before_param m c 2 rfl (fun _ _ _ => rfl) (fun t => by rw [after0_2]) t d
theorem before0_3 (c : Dev nD) (t : Fin cfg0.N) (d) : (dats m 0 c).before 3 t d = iblk m c 3 t :=
  before_param m c 3 rfl (fun _ _ _ => rfl) (fun t => by rw [after0_3]) t d

/-- The activation windows are fetched at every point: their buffers hold the fetched part, and below it what was there. -/
theorem before0_4 (c : Dev nD) (t : Fin cfg0.N) (d) : (dats m 0 c).before 4 t d = win0_4.fill (grid0.coords t) d (iblk m c 4 t) := by
  rw [(dats m 0 c).before_fetched 4 t (fetch0_4 t) d]; unfold Dat.fetched Dat.blockOf iblk; rw [A_eq]
theorem before0_5 (c : Dev nD) (t : Fin cfg0.N) (d) : (dats m 0 c).before 5 t d = win0_5.fill (grid0.coords t) d (iblk m c 5 t) := by
  rw [(dats m 0 c).before_fetched 5 t (fetch0_5 t) d]; unfold Dat.fetched Dat.blockOf iblk; rw [A_eq]

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ (∃ d, owns (c : Thread nD τ) (st0_4 t) fullShare ((cfg0.win 4).fill (cfg0.grid.coords t) d ((cfg0.win 4).cut (cfg0.grid.coords t) ((dats m 0 c).after 4 t))))
    ∗ (∃ d, owns (c : Thread nD τ) (st0_5 t) fullShare ((cfg0.win 5).fill (cfg0.grid.coords t) d ((cfg0.win 5).cut (cfg0.grid.coords t) ((dats m 0 c).after 5 t))))
    ∗ owns (c : Thread nD τ) (st0_6 t) fullShare ((dats m 0 c).after 6 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ (grid0.coords t) _ _ _ _ _ _ _ _ _ _ _ _ _ _ (iblk m c 0 t) (iblk m c 1 t) (iblk m c 2 t) (iblk m c 3 t)
    (win0_4.fill (grid0.coords t) d4 (iblk m c 4 t)) (win0_5.fill (grid0.coords t) d5 (iblk m c 5 t)) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  have h4 : win0_4.cut (grid0.coords t) (xa m c t) = iblk m c 4 t := win0_4.cut_fill _ _ _
  have h5 : win0_5.cut (grid0.coords t) (xb m c t) = iblk m c 5 t := win0_5.cut_fill _ _ _
  isplitl [H4]
  · iexists d4
    change _ ⊢ owns (c : Thread nD τ) (st0_4 t) fullShare (win0_4.fill (grid0.coords t) d4 (win0_4.cut (grid0.coords t) (xa m c t)))
    rw [h4]; try iexact H4
  isplitl [H5]
  · iexists d5
    change _ ⊢ owns (c : Thread nD τ) (st0_5 t) fullShare (win0_5.fill (grid0.coords t) d5 (win0_5.cut (grid0.coords t) (xb m c t)))
    rw [h5]; try iexact H5
  rw [show xa m c t = win0_4.fill (grid0.coords t) zpad (iblk m c 4 t) from rfl, show xb m c t = win0_5.fill (grid0.coords t) zpad (iblk m c 5 t) from rfl,
    outBlk_fill t _ _ _ _ zpad d4 zpad d5]
  iexact H6

/-- The body obligation, at every point. -/
theorem body_obligation (c : Dev nD) : BodyObligationLoose (dats (F := F) m 0 c) (defs₀ (F := F)) Variants.none () Set.univ := fun t => by
  rw [bigSep_W0, bigSep_W0]
  exact sound_body m c t

end Cert.Kernel.Hand

end
-- ==== Proof.KernelRun.lean ====
/-
  The run of the streamed network's program: the two reshapes, then the pipelined region, on every core.

  The activation array is handed to the region through TWO windows (its rows 0..7 and its rows 8..9), so the launch
  deals the array's one points-to among them: half a share each — both windows only read it.  Every other array has
  one window and is held whole.  After the run each window's array holds what the proof data computes (an input its
  contents at entry, the output row the tiles the body stored), and the two bias vectors, which no window stages,
  are as the region found them.
-/
import proofs.«153465_g2000604993931757_pallaspilot1_154_16_alg».proof.Proof.KernelData
import Idealize.ShloMosaic.Lib.Pipeline.Kit
import Idealize.ShloMosaic.Lib.Pipeline.Frame

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The proof's resource algebra: one copy of the pipeline's. -/
abbrev EP : Emb (UR sig nD τ) (MT nD τ sig Unit (Elt F) ℕ (UR sig nD τ) ℕ) := emb₁

variable (m : (ℓ : Loc nD τ sig) → Buf (Elt F) ℓ) (ρ : Dev nD → PrngReg)

/-- The launch element: every staging cell's owner at round 0 and a duty token for every transfer the pipeline issues. -/
def u₀ : UR sig nD τ := initOf (Pipeline.cells cfgs cellOf_inj) (Pipeline.launchToks cfgs cellOf_inj)

/-! ## Dealing the arrays among the windows -/

/-- One window's array as the proof data holds it at entry: the whole buffer behind it, at the window's share, at
    the contents the region finds. -/
theorem arr_eq (c : Dev nD) (w : Fin cfg0.W) (q : PosShare TreeShare) (hq : (dats m 0 c).share w = q) :
    ((cfg0.win w).arr.view.loc (c : Thread nD τ) ↦[(cfg0.win w).arr.view.set]{(dats m 0 c).share w} (dats m 0 c).arrAt w 0 : sProp 𝕄)
      = (((c : Thread nD τ).loc (Pipeline.arrRef spec0 w)) ↦{q} V m c (Pipeline.arrRef spec0 w)) := by
  rw [(arr_whole0 w).set_eq_univ, hq]; rfl

/-- The buffers behind the windows' arrays, listed: six buffers for seven windows. -/
theorem arrBufs_eq (c : Dev nD) :
    (Pipeline.arrBufs (Ix := Unit) (Name := ℕ) (U := UR sig nD τ) (Lvl := ℕ) spec0 c (V m c) : sProp 𝕄)
      = iprop((((c : Thread nD τ).loc main_arg1) ↦{fullShare} V m c main_arg1) ∗ (((c : Thread nD τ).loc main_v0) ↦{fullShare} V m c main_v0)
          ∗ (((c : Thread nD τ).loc main_arg3) ↦{fullShare} V m c main_arg3) ∗ (((c : Thread nD τ).loc main_v1) ↦{fullShare} V m c main_v1)
          ∗ (((c : Thread nD τ).loc main_arg0) ↦{fullShare} V m c main_arg0) ∗ (((c : Thread nD τ).loc main_v2) ↦{fullShare} V m c main_v2)) := by
  unfold Pipeline.arrBufs
  exact bigSep_eq_bigSepL_of_eq [main_arg1, main_v0, main_arg3, main_v1, main_arg0, main_v2] (by decide) (by decide) _

/-- The six buffers behind the seven windows' arrays, each whole, make the proof data's arrays at entry: the
    activation array's points-to is split in halves between its two windows. -/
theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  rw [arrBufs_eq m c]
  unfold Dat.arrays
  rw [bigSep_W0,
    arr_eq m c 0 fullShare rfl, arr_eq m c 1 fullShare rfl, arr_eq m c 2 fullShare rfl, arr_eq m c 3 fullShare rfl,
    arr_eq m c 4 fullShare.left rfl, arr_eq m c 5 fullShare.right rfl, arr_eq m c 6 fullShare rfl]
  iintro ⟨H1, Hv0, H3, Hv1, H0, Hv2⟩
  ihave H0' := (pointsTo_share (PosShare.mem_left_op_right fullShare)).1 $$ H0
  icases H0' with ⟨H0l, H0r⟩
  isplitl [H1]; · iexact H1
  isplitl [Hv0]; · iexact Hv0
  isplitl [H3]; · iexact H3
  isplitl [Hv1]; · iexact Hv1
  isplitl [H0l]; · iexact H0l
  isplitl [H0r]; · iexact H0r
  iexact Hv2

/-! ## The run -/

set_option backward.isDefEq.respectTransparency.types false in
/-- At the compiled mesh, for any values, from any memory with zero counters: every weakly fair execution of the
    program terminates, and every final state has each window's array at what the proof data computes and every other
    unscoped buffer as the region found it. -/
theorem run_main : θ_run defs (onTc (τ := τ) (main (F := F))) (s₀ m ρ) (Pipeline.FramePost cfgs (dats m) 0 (V m)) :=
  Pipeline.θ_run_region_noSem_shared cfgs (dats m) () cellOf_inj (0 : Fin 1) winFacts₀0 EP defs₀ Variants.none m ρ main
    (hbody := body_obligation m) (hne := block_pos0) (harr := arr_whole0) (hstage := stage_whole0)
    (howed := fun _ _ => rfl) (u₀ := u₀) (hu₀ := BI.Entails.refl _)
    (V := V m) (hmain := hmain m Variants.none) (hsplit := hsplit m)
    (X := fun _ => iprop(emp)) (Y := fun _ => iprop(emp))
    (Z := fun c => Pipeline.unscopedRest (Ix := Unit) (Name := ℕ) (U := UR sig nD τ) (Lvl := ℕ) spec0 c (V m c))
    (hX := fun c => by iintro H; isplitr; · iempintro
                       iexact H)
    (hin := fun _ => by rw [scopedRest0_eq]; iintro ⟨-, -⟩; iempintro)
    (hout := fun _ => by rw [scopedRest0_eq]; iintro -; isplitr <;> iempintro)
    (QY := fun c s => ∀ b ∈ Pipeline.restRefs sig spec0, s.mem ((c.tc : Thread nD τ).loc b) = V m c b)
    (hY := fun c s' => by
      iintro ⟨-, HU, HSI⟩
      unfold Pipeline.unscopedRest
      imodintro
      iapply (pointsTo_read_all (Pipeline.restRefs sig spec0) (fun b => (c.tc : Thread nD τ).loc b) (V m c) s')
      isplitl [HU] <;> iassumption)
    (hQ := fun s h c => ⟨(h c).1, (h c).2⟩)

/-! ## The frame -/

/-- The argument arrays end as they were launched: the three the windows stage are inputs, never written back; the
    two bias vectors bypass the region; and the reshapes before it write none of the five. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).1 4).trans (((dats m 0 c).arrAt_in 4 rfl _).trans ((A_eq m c 4).trans (V_main_arg0 m c))),
      ((h c).1 0).trans (((dats m 0 c).arrAt_in 0 rfl _).trans ((A_eq m c 0).trans (V_main_arg1 m c))),
      ((h c).2 main_arg2 (Pipeline.mem_restRefs_of main_arg2 (by decide) (by decide))).trans (V_main_arg2 m c),
      ((h c).1 2).trans (((dats m 0 c).arrAt_in 2 rfl _).trans ((A_eq m c 2).trans (V_main_arg3 m c))),
      ((h c).2 main_arg4 (Pipeline.mem_restRefs_of main_arg4 (by decide) (by decide))).trans (V_main_arg4 m c)⟩) (run_main m ρ)

end Cert.Kernel.Hand

end
-- ==== Proof.KernelIdealBody.lean ====
/-
  The kernel body of the streamed two-layer network, run once on whole staging buffers.

  The body reads the 5x10 weight matrix as its columns 0..7 and 8..9, the batch tile of the activations as its
  feature rows 0..7 (one staged block) and 8..9 (the first two rows of a second staged block of the same array),
  the two biases and the read-out row, and stores ONE value into the output's staged block: the payload of those
  seven loads.  This module states what the output's staging buffer holds afterwards as a function of what the six
  input buffers held, proves the body's triple, and records the program up to the region: the two reshapes of the
  biases that precede it.
-/
import proofs.«153465_g2000604993931757_pallaspilot1_154_16_alg».proof.Proof.Gen.KernelIdeal.Launch
import proofs.«153465_g2000604993931757_pallaspilot1_154_16_alg».proof.Proof.Gen.KernelIdeal.Skeleton
import proofs.«153465_g2000604993931757_pallaspilot1_154_16_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to the region -/

/-- The core's buffers when the region is entered: the two bias vectors reshaped to a row and to a 1x1 matrix. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- The program is the two reshapes, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- Neither reshape writes an argument array: the region finds each as launched. -/
theorem V_arg (c : Dev nD) (b : Ref sig .tc) (h0 : b ≠ main_v0) (h1 : b ≠ main_v1) : V m c b = m ((c : Thread nD τ).loc b) :=
  StableHlo.after_of_forall_not_mem (b := Proc.devRef .tc b) _ _ (List.forall_iff_forall_mem.mp (by
    simp only [hostOps0, List.Forall, StableHlo.reshape_writes, Finset.mem_singleton]
    exact ⟨StableHlo.devRef_ne_of_ne h0, StableHlo.devRef_ne_of_ne h1⟩))

theorem V_main_arg0 (c : Dev nD) : V m c main_arg0 = m ((c : Thread nD τ).loc main_arg0) := V_arg m c _ (by decide) (by decide)
theorem V_main_arg1 (c : Dev nD) : V m c main_arg1 = m ((c : Thread nD τ).loc main_arg1) := V_arg m c _ (by decide) (by decide)
theorem V_main_arg2 (c : Dev nD) : V m c main_arg2 = m ((c : Thread nD τ).loc main_arg2) := V_arg m c _ (by decide) (by decide)
theorem V_main_arg3 (c : Dev nD) : V m c main_arg3 = m ((c : Thread nD τ).loc main_arg3) := V_arg m c _ (by decide) (by decide)
theorem V_main_arg4 (c : Dev nD) : V m c main_arg4 = m ((c : Thread nD τ).loc main_arg4) := V_arg m c _ (by decide) (by decide)

/-! ## The body's accesses -/

abbrev rW1a : Rect S5x10 := Rect.unit (s := S5x10) ![0, 0] S5x8.size inb_S5x10_S5x8_0_0
abbrev rXa : Rect S8x131072 := Rect.unit (s := S8x131072) ![0, 0] S8x131072.size inb_S8x131072_S8x131072_0_0
abbrev rW1b : Rect S5x10 := Rect.unit (s := S5x10) ![0, 8] S5x2.size inb_S5x10_S5x2_0_8
abbrev rXb : Rect S8x131072 := Rect.unit (s := S8x131072) ![0, 0] S2x131072.size inb_S8x131072_S2x131072_0_0
abbrev rRow : Rect S1x5 := Rect.unit (s := S1x5) ![0, 0] S1x5.size inb_S1x5_S1x5_0_0
abbrev rOne : Rect S1x1 := Rect.unit (s := S1x1) ![0, 0] S1x1.size inb_S1x1_S1x1_0_0
abbrev rOut : Rect S1x131072 := Rect.unit (s := S1x131072) ![0, 0] S1x131072.size inb_S1x131072_S1x131072_0_0

/-- What the output's staging buffer holds after the body, from the contents of the six input buffers: the one
    store's payload, over the whole buffer. -/
def outBlk (x0 : Vec F S5x10 .f32) (x1 : Vec F S1x5 .f32) (x2 : Vec F S1x5 .f32) (x3 : Vec F S1x1 .f32)
    (x4 : Vec F S8x131072 .f32) (x5 : Vec F S8x131072 .f32) : Vec F S1x131072 .f32 :=
  View.canon [⟨rOut, k0_pay1 (View.ld x0 rW1a) (View.ld x4 rXa) (View.ld x0 rW1b) (View.ld x5 rXb) (View.ld x1 rRow) (View.ld x2 rRow) (View.ld x3 rOne)⟩]

/-- The store covers the buffer. -/
theorem cover_out (p0 : Vec F S1x131072 .f32) (y : S1x131072.Idx) :
    ∃ pc ∈ ([⟨rOut, p0⟩] : List (View.Piece (Elt F) S1x131072 .f32)), y ∈ pc.1.set :=
  View.cover_of_tiled [⟨rOut, p0⟩] S1x131072.size (by rfl) y

/-! ## The body's triple -/

set_option maxHeartbeats 1000000 in
/-- The body on whole staging memrefs, the inputs' at contents `x0 … x5` and the output's at anything, runs to the
    continuation with the inputs' as they were and the output's at `outBlk` of them. -/
theorem sound_kernel (c : Dev nD) (E : Set ℕ) (i : grid0.Coords)
    (arg1 : Memref sig .tc .vmem S5x10 .f32) (harg1 : arg1.IsWhole) (arg2 : Memref sig .tc .vmem S1x5 .f32) (harg2 : arg2.IsWhole)
    (arg3 : Memref sig .tc .vmem S1x5 .f32) (harg3 : arg3.IsWhole) (arg4 : Memref sig .tc .vmem S1x1 .f32) (harg4 : arg4.IsWhole)
    (arg5 : Memref sig .tc .vmem S8x131072 .f32) (harg5 : arg5.IsWhole) (arg6 : Memref sig .tc .vmem S8x131072 .f32) (harg6 : arg6.IsWhole)
    (arg7 : Memref sig .tc .vmem S1x131072 .f32) (harg7 : arg7.IsWhole)
    (x0 : Vec F S5x10 .f32) (x1 : Vec F S1x5 .f32) (x2 : Vec F S1x5 .f32) (x3 : Vec F S1x1 .f32)
    (x4 : Vec F S8x131072 .f32) (x5 : Vec F S8x131072 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (outBlk x0 x1 x2 x3 x4 x5)) -∗ K ⟨⟩))
      ⊢ wp frame (wpE (defs₀ (F := F)) Variants.none c none) E
          (cc0__mlp_stream_kernel i arg1 harg1 arg2 harg2 arg3 harg3 arg4 harg4 arg5 harg5 arg6 harg6 arg7 harg7) K := by
  simp only [cc0__mlp_stream_kernel_eq_skeleton]; unfold cc0__mlp_stream_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover_out _)

end Cert.KernelIdeal.Hand

end
-- ==== Proof.KernelIdealData.lean ====
/-
  The proof data of the streamed network's one pipelined region, and the body's obligation at every grid point.

  The region has seven windows.  Four are the small parameter arrays, fetched once.  Two read the SAME activation
  array: one its feature rows 0..7 in tiles of 131072 batch columns, the other the tile of rows 8..15 of the same
  columns — an array of ten rows, so only the tile's rows 0..1 come from the array and what lies below them in the
  staging buffer is whatever the fetch left there.  The seventh is the output row, one tile per point.  The body
  reads only rows 0..1 of the overhanging tile, so what it stores does not depend on the unnamed rows: that is
  `outBlk_fill`.
-/
import proofs.«153465_g2000604993931757_pallaspilot1_154_16_alg».proof.Proof.KernelIdealBody

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The windows' blocks -/

/-- Window `w`'s block at point `t`, read off its array as the region finds it: the part of the tile inside the array. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The tile of rows 0..7 lies inside the ten-row array at every point: the whole staging buffer is fetched. -/
theorem xsize4 : ∀ (t : Fin cfg0.N) (a : Fin 2), win0_4.xsize (grid0.coords t) a = S8x131072.size a :=
  (by decide +kernel : ∀ (t : Fin grid0.N) (a : Fin 2), win0_4.xsize (grid0.coords t) a = S8x131072.size a)

/-- Of the tile of rows 8..15 the array has rows 8 and 9: the fetch fills the buffer's rows 0..1, all columns. -/
theorem xsize5 : ∀ t : Fin cfg0.N, win0_5.xsize (grid0.coords t) (0 : Fin 2) = 2 ∧ win0_5.xsize (grid0.coords t) (1 : Fin 2) = 131072 :=
  (by decide +kernel : ∀ t : Fin grid0.N, win0_5.xsize (grid0.coords t) (0 : Fin 2) = 2 ∧ win0_5.xsize (grid0.coords t) (1 : Fin 2) = 131072)

/-- On an element the fetch fills, a filled buffer does not depend on what it held before. -/
theorem fill_congr_of_moved {G : Pipeline.Grid} (w : Window sig G) {α : Type} (i : G.Coords) (d d' : w.block.Idx → α)
    (g : (w.xblock i).Idx → α) (j : w.block.Idx) (h : w.moved i j = true) : w.fill i d g j = w.fill i d' g j := by
  unfold Window.fill; rw [dif_pos h, dif_pos h]

theorem moved4 (t : Fin cfg0.N) (j : win0_4.block.Idx) : win0_4.moved (grid0.coords t) j = true :=
  (win0_4.moved_iff _ j).mpr fun a => by rw [xsize4 t a]; exact (j a).isLt

theorem fill4_congr (t : Fin cfg0.N) (d d' : Vec F S8x131072 .f32) (g) :
    (win0_4.fill (grid0.coords t) d g : Vec F S8x131072 .f32) = win0_4.fill (grid0.coords t) d' g :=
  funext fun j => fill_congr_of_moved win0_4 _ d d' g j (moved4 t j)

/-- Rows 0..1 of the overhanging tile's buffer are what the fetch put there. -/
theorem ld5_congr (t : Fin cfg0.N) (d d' : Vec F S8x131072 .f32) (g) :
    View.ld (win0_5.fill (grid0.coords t) d g : Vec F S8x131072 .f32) rXb = View.ld (win0_5.fill (grid0.coords t) d' g : Vec F S8x131072 .f32) rXb := by
  funext x
  refine fill_congr_of_moved win0_5 _ d d' g _ ((win0_5.moved_iff _ _).mpr fun a => ?_)
  have h0 : (x 0).val < 2 := (x 0).isLt
  have h1 : (x 1).val < 131072 := (x 1).isLt
  match a with
  | ⟨0, _⟩ =>
    show (rXb.emb x (0 : Fin 2)).val < win0_5.xsize (grid0.coords t) (0 : Fin 2)
    rw [(xsize5 t).1, Rect.emb_apply]; show 0 + 1 * (x 0).val < 2; omega
  | ⟨1, _⟩ =>
    show (rXb.emb x (1 : Fin 2)).val < win0_5.xsize (grid0.coords t) (1 : Fin 2)
    rw [(xsize5 t).2, Rect.emb_apply]; show 0 + 1 * (x 1).val < 131072; omega

/-- So what the body stores does not depend on what the two activation buffers held outside the fetched parts. -/
theorem outBlk_fill (t : Fin cfg0.N) (x0 : Vec F S5x10 .f32) (x1 x2 : Vec F S1x5 .f32) (x3 : Vec F S1x1 .f32)
    (d4 d4' d5 d5' : Vec F S8x131072 .f32) (g4) (g5) :
    outBlk x0 x1 x2 x3 (win0_4.fill (grid0.coords t) d4 g4) (win0_5.fill (grid0.coords t) d5 g5)
      = outBlk x0 x1 x2 x3 (win0_4.fill (grid0.coords t) d4' g4) (win0_5.fill (grid0.coords t) d5' g5) := by
  unfold outBlk
  rw [fill4_congr t d4 d4' g4]
  erw [ld5_congr t d5 d5' g5]
  rfl

/-! ## The proof data -/

/-- The filler of the unnamed rows in the proof data: the zero word (nothing reads it). -/
abbrev zpad : Vec F S8x131072 .f32 := fun _ => Scalar.ofBits .f32 0#32

/-- The two activation buffers after the body: the fetched parts, filled out with the filler. -/
def xa (c : Dev nD) (t : Fin cfg0.N) : Vec F S8x131072 .f32 := win0_4.fill (grid0.coords t) zpad (iblk m c 4 t)
def xb (c : Dev nD) (t : Fin cfg0.N) : Vec F S8x131072 .f32 := win0_5.fill (grid0.coords t) zpad (iblk m c 5 t)

/-- The proof data: the arrays as the region finds them; after the body each parameter buffer at its block, the two
    activation buffers at their fetched parts, the output's at the body's payload of those; the one activation
    array lent to its two windows in halves; nothing carried between points, nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => xa m c t
    | ⟨5, _⟩ => xb m c t
    | ⟨6, _⟩ => outBlk (iblk m c 0 t) (iblk m c 1 t) (iblk m c 2 t) (iblk m c 3 t) (xa m c t) (xb m c t)
  Φ _ := iprop(emp)
  q w := match w with
    | ⟨4, _⟩ => fullShare.left
    | ⟨5, _⟩ => fullShare.right
    | _ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = xa m c t := by dsimp only [dats]
theorem after0_5 (c : Dev nD) (t : Fin cfg0.N) : (dats m 0 c).after 5 t = xb m c t := by dsimp only [dats]
theorem after0_6 (c : Dev nD) (t : Fin cfg0.N) :
    (dats m 0 c).after 6 t = outBlk (iblk m c 0 t) (iblk m c 1 t) (iblk m c 2 t) (iblk m c 3 t) (xa m c t) (xb m c t) := by dsimp only [dats]

/-! ## What the body finds -/

/-- A parameter window's buffer holds its block at every point, fetched there or not. -/
theorem before_param (c : Dev nD) (w : Fin cfg0.W) (hw : (cfg0.win w).isOut = false)
    (hclip : ∀ t t' : Fin cfg0.N, (cfg0.win w).index t = (cfg0.win w).index t' →
      (cfg0.win w).clip (cfg0.grid.coords t) = (cfg0.win w).clip (cfg0.grid.coords t'))
    (hkeep : ∀ t, (cfg0.win w).cut (cfg0.grid.coords t) ((dats m 0 c).after w t) = iblk m c w t)
    (t : Fin cfg0.N) (d) : (dats m 0 c).before w t d = (cfg0.win w).fill (cfg0.grid.coords t) d (iblk m c w t) :=
  ((dats m 0 c).before_in_eq_fetched w hw (fun _ => rfl) hclip (fun t => by rw [hkeep]; unfold Dat.blockOf iblk; rw [A_eq]) t d).trans
    (by unfold Dat.fetched Dat.blockOf iblk; rw [A_eq])

theorem before0_0 (c : Dev nD) (t : Fin cfg0.N) (d) : (dats m 0 c).before 0 t d = iblk m c 0 t :=
  before_param m c 0 rfl (fun _ _ _ => rfl) (fun t => by rw [after0_0]) t d
theorem before0_1 (c : Dev nD) (t : Fin cfg0.N) (d) : (dats m 0 c).before 1 t d = iblk m c 1 t :=
  before_param m c 1 rfl (fun _ _ _ => rfl) (fun t => by rw [after0_1]) t d
theorem before0_2 (c : Dev nD) (t : Fin cfg0.N) (d) : (dats m 0 c).before 2 t d = iblk m c 2 t :=
  before_param m c 2 rfl (fun _ _ _ => rfl) (fun t => by rw [after0_2]) t d
theorem before0_3 (c : Dev nD) (t : Fin cfg0.N) (d) : (dats m 0 c).before 3 t d = iblk m c 3 t :=
  before_param m c 3 rfl (fun _ _ _ => rfl) (fun t => by rw [after0_3]) t d

/-- The activation windows are fetched at every point: their buffers hold the fetched part, and below it what was there. -/
theorem before0_4 (c : Dev nD) (t : Fin cfg0.N) (d) : (dats m 0 c).before 4 t d = win0_4.fill (grid0.coords t) d (iblk m c 4 t) := by
  rw [(dats m 0 c).before_fetched 4 t (fetch0_4 t) d]; unfold Dat.fetched Dat.blockOf iblk; rw [A_eq]
theorem before0_5 (c : Dev nD) (t : Fin cfg0.N) (d) : (dats m 0 c).before 5 t d = win0_5.fill (grid0.coords t) d (iblk m c 5 t) := by
  rw [(dats m 0 c).before_fetched 5 t (fetch0_5 t) d]; unfold Dat.fetched Dat.blockOf iblk; rw [A_eq]

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ (∃ d, owns (c : Thread nD τ) (st0_4 t) fullShare ((cfg0.win 4).fill (cfg0.grid.coords t) d ((cfg0.win 4).cut (cfg0.grid.coords t) ((dats m 0 c).after 4 t))))
    ∗ (∃ d, owns (c : Thread nD τ) (st0_5 t) fullShare ((cfg0.win 5).fill (cfg0.grid.coords t) d ((cfg0.win 5).cut (cfg0.grid.coords t) ((dats m 0 c).after 5 t))))
    ∗ owns (c : Thread nD τ) (st0_6 t) fullShare ((dats m 0 c).after 6 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ (grid0.coords t) _ _ _ _ _ _ _ _ _ _ _ _ _ _ (iblk m c 0 t) (iblk m c 1 t) (iblk m c 2 t) (iblk m c 3 t)
    (win0_4.fill (grid0.coords t) d4 (iblk m c 4 t)) (win0_5.fill (grid0.coords t) d5 (iblk m c 5 t)) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  have h4 : win0_4.cut (grid0.coords t) (xa m c t) = iblk m c 4 t := win0_4.cut_fill _ _ _
  have h5 : win0_5.cut (grid0.coords t) (xb m c t) = iblk m c 5 t := win0_5.cut_fill _ _ _
  isplitl [H4]
  · iexists d4
    change _ ⊢ owns (c : Thread nD τ) (st0_4 t) fullShare (win0_4.fill (grid0.coords t) d4 (win0_4.cut (grid0.coords t) (xa m c t)))
    rw [h4]; try iexact H4
  isplitl [H5]
  · iexists d5
    change _ ⊢ owns (c : Thread nD τ) (st0_5 t) fullShare (win0_5.fill (grid0.coords t) d5 (win0_5.cut (grid0.coords t) (xb m c t)))
    rw [h5]; try iexact H5
  rw [show xa m c t = win0_4.fill (grid0.coords t) zpad (iblk m c 4 t) from rfl, show xb m c t = win0_5.fill (grid0.coords t) zpad (iblk m c 5 t) from rfl,
    outBlk_fill t _ _ _ _ zpad d4 zpad d5]
  iexact H6

/-- The body obligation, at every point. -/
theorem body_obligation (c : Dev nD) : BodyObligationLoose (dats (F := F) m 0 c) (defs₀ (F := F)) Variants.none () Set.univ := fun t => by
  rw [bigSep_W0, bigSep_W0]
  exact sound_body m c t

end Cert.KernelIdeal.Hand

end
-- ==== Proof.KernelIdealRun.lean ====
/-
  The run of the streamed network's program: the two reshapes, then the pipelined region, on every core.

  The activation array is handed to the region through TWO windows (its rows 0..7 and its rows 8..9), so the launch
  deals the array's one points-to among them: half a share each — both windows only read it.  Every other array has
  one window and is held whole.  After the run each window's array holds what the proof data computes (an input its
  contents at entry, the output row the tiles the body stored), and the two bias vectors, which no window stages,
  are as the region found them.
-/
import proofs.«153465_g2000604993931757_pallaspilot1_154_16_alg».proof.Proof.KernelIdealData
import Idealize.ShloMosaic.Lib.Pipeline.Kit
import Idealize.ShloMosaic.Lib.Pipeline.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The proof's resource algebra: one copy of the pipeline's. -/
abbrev EP : Emb (UR sig nD τ) (MT nD τ sig Unit (Elt F) ℕ (UR sig nD τ) ℕ) := emb₁

variable (m : (ℓ : Loc nD τ sig) → Buf (Elt F) ℓ) (ρ : Dev nD → PrngReg)

/-- The launch element: every staging cell's owner at round 0 and a duty token for every transfer the pipeline issues. -/
def u₀ : UR sig nD τ := initOf (Pipeline.cells cfgs cellOf_inj) (Pipeline.launchToks cfgs cellOf_inj)

/-! ## Dealing the arrays among the windows -/

/-- One window's array as the proof data holds it at entry: the whole buffer behind it, at the window's share, at
    the contents the region finds. -/
theorem arr_eq (c : Dev nD) (w : Fin cfg0.W) (q : PosShare TreeShare) (hq : (dats m 0 c).share w = q) :
    ((cfg0.win w).arr.view.loc (c : Thread nD τ) ↦[(cfg0.win w).arr.view.set]{(dats m 0 c).share w} (dats m 0 c).arrAt w 0 : sProp 𝕄)
      = (((c : Thread nD τ).loc (Pipeline.arrRef spec0 w)) ↦{q} V m c (Pipeline.arrRef spec0 w)) := by
  rw [(arr_whole0 w).set_eq_univ, hq]; rfl

/-- The buffers behind the windows' arrays, listed: six buffers for seven windows. -/
theorem arrBufs_eq (c : Dev nD) :
    (Pipeline.arrBufs (Ix := Unit) (Name := ℕ) (U := UR sig nD τ) (Lvl := ℕ) spec0 c (V m c) : sProp 𝕄)
      = iprop((((c : Thread nD τ).loc main_arg1) ↦{fullShare} V m c main_arg1) ∗ (((c : Thread nD τ).loc main_v0) ↦{fullShare} V m c main_v0)
          ∗ (((c : Thread nD τ).loc main_arg3) ↦{fullShare} V m c main_arg3) ∗ (((c : Thread nD τ).loc main_v1) ↦{fullShare} V m c main_v1)
          ∗ (((c : Thread nD τ).loc main_arg0) ↦{fullShare} V m c main_arg0) ∗ (((c : Thread nD τ).loc main_v2) ↦{fullShare} V m c main_v2)) := by
  unfold Pipeline.arrBufs
  exact bigSep_eq_bigSepL_of_eq [main_arg1, main_v0, main_arg3, main_v1, main_arg0, main_v2] (by decide) (by decide) _

/-- The six buffers behind the seven windows' arrays, each whole, make the proof data's arrays at entry: the
    activation array's points-to is split in halves between its two windows. -/
theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  rw [arrBufs_eq m c]
  unfold Dat.arrays
  rw [bigSep_W0,
    arr_eq m c 0 fullShare rfl, arr_eq m c 1 fullShare rfl, arr_eq m c 2 fullShare rfl, arr_eq m c 3 fullShare rfl,
    arr_eq m c 4 fullShare.left rfl, arr_eq m c 5 fullShare.right rfl, arr_eq m c 6 fullShare rfl]
  iintro ⟨H1, Hv0, H3, Hv1, H0, Hv2⟩
  ihave H0' := (pointsTo_share (PosShare.mem_left_op_right fullShare)).1 $$ H0
  icases H0' with ⟨H0l, H0r⟩
  isplitl [H1]; · iexact H1
  isplitl [Hv0]; · iexact Hv0
  isplitl [H3]; · iexact H3
  isplitl [Hv1]; · iexact Hv1
  isplitl [H0l]; · iexact H0l
  isplitl [H0r]; · iexact H0r
  iexact Hv2

/-! ## The run -/

set_option backward.isDefEq.respectTransparency.types false in
/-- At the compiled mesh, for any values, from any memory with zero counters: every weakly fair execution of the
    program terminates, and every final state has each window's array at what the proof data computes and every other
    unscoped buffer as the region found it. -/
theorem run_main : θ_run defs (onTc (τ := τ) (main (F := F))) (s₀ m ρ) (Pipeline.FramePost cfgs (dats m) 0 (V m)) :=
  Pipeline.θ_run_region_noSem_shared cfgs (dats m) () cellOf_inj (0 : Fin 1) winFacts₀0 EP defs₀ Variants.none m ρ main
    (hbody := body_obligation m) (hne := block_pos0) (harr := arr_whole0) (hstage := stage_whole0)
    (howed := fun _ _ => rfl) (u₀ := u₀) (hu₀ := BI.Entails.refl _)
    (V := V m) (hmain := hmain m Variants.none) (hsplit := hsplit m)
    (X := fun _ => iprop(emp)) (Y := fun _ => iprop(emp))
    (Z := fun c => Pipeline.unscopedRest (Ix := Unit) (Name := ℕ) (U := UR sig nD τ) (Lvl := ℕ) spec0 c (V m c))
    (hX := fun c => by iintro H; isplitr; · iempintro
                       iexact H)
    (hin := fun _ => by rw [scopedRest0_eq]; iintro ⟨-, -⟩; iempintro)
    (hout := fun _ => by rw [scopedRest0_eq]; iintro -; isplitr <;> iempintro)
    (QY := fun c s => ∀ b ∈ Pipeline.restRefs sig spec0, s.mem ((c.tc : Thread nD τ).loc b) = V m c b)
    (hY := fun c s' => by
      iintro ⟨-, HU, HSI⟩
      unfold Pipeline.unscopedRest
      imodintro
      iapply (pointsTo_read_all (Pipeline.restRefs sig spec0) (fun b => (c.tc : Thread nD τ).loc b) (V m c) s')
      isplitl [HU] <;> iassumption)
    (hQ := fun s h c => ⟨(h c).1, (h c).2⟩)

/-! ## The frame -/

/-- The argument arrays end as they were launched: the three the windows stage are inputs, never written back; the
    two bias vectors bypass the region; and the reshapes before it write none of the five. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).1 4).trans (((dats m 0 c).arrAt_in 4 rfl _).trans ((A_eq m c 4).trans (V_main_arg0 m c))),
      ((h c).1 0).trans (((dats m 0 c).arrAt_in 0 rfl _).trans ((A_eq m c 0).trans (V_main_arg1 m c))),
      ((h c).2 main_arg2 (Pipeline.mem_restRefs_of main_arg2 (by decide) (by decide))).trans (V_main_arg2 m c),
      ((h c).1 2).trans (((dats m 0 c).arrAt_in 2 rfl _).trans ((A_eq m c 2).trans (V_main_arg3 m c))),
      ((h c).2 main_arg4 (Pipeline.mem_restRefs_of main_arg4 (by decide) (by decide))).trans (V_main_arg4 m c)⟩) (run_main m ρ)

end Cert.KernelIdeal.Hand

end
-- ==== Proof.LibGram.lean ====
/-
  Readings, at an entry, of the operations a table of distances between the rows of two arrays is built from, for any
  sizes.

  The squared distance between row `a` of one array and row `b` of another is the sum of the two rows' squared norms
  minus twice their inner product. A kernel keeps the first array's squared norms as a column (a length-`a` vector cast
  to `a × 1`), and takes the inner products by a matrix product that contracts one axis of each operand. The lemmas
  below read these two operations at an entry; the last one is the law by which halving a negated number is multiplying
  the number by minus one half, on every extended real.
-/
import Idealize.ShloMosaic.Lib.Pipeline.Value
import Idealize.ShloMosaic.Lib.ValueIdx
import Idealize.ShloMosaic.Lib.ValueLayout
import Idealize.ShloMosaic.PureOps.Ideal.Laws

noncomputable section

namespace Cert.Lib.Gram

open Idealize.ShloMosaic Idealize.ShloMosaic.ValueIdx

variable {α : Type}

/-- A length-`a` vector cast to an `a × 1` column reads, at `(i, u)`, the vector at `i`, whatever the unit
    coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A matrix product accumulated into zero whose dimension numbers contract ONE axis, of extent `k`, reads at an
    output entry `j` the sum over that axis's coordinate `c` of the products of the two operands at the entries
    `li c` and `ri c` the dimension numbers pair with `j` and `c`. -/
theorem matmul_zero_single_apply {sl sr so : Shape} {φ₁ φ₂ : FTy} (D : DotDims sl sr so) (k : ℕ)
    (hrank : D.contr.rank = 1) (hsize : D.contr.size ⟨0, by omega⟩ = k) (prec : Option ContractPrecision)
    (A : FVec Ideal sl φ₁) (B : FVec Ideal sr φ₂) (j : so.Idx) (li : Fin k → sl.Idx) (ri : Fin k → sr.Idx)
    (hl : ∀ c, D.lhsIdx j ((contrEquiv1 D k hrank hsize).symm c) = li c)
    (hr : ∀ c, D.rhsIdx j ((contrEquiv1 D k hrank hsize).symm c) = ri c) :
    matmul D prec A B (constant so .f32 0x00000000#32) j = ∑ c : Fin k, A (li c) * B (ri c) := by
  show FloatOps.matmul D prec A B _ j = _
  rw [Ideal.matmul_constant_zero_apply, ← Equiv.sum_comp (contrEquiv1 D k hrank hsize).symm]
  exact Finset.sum_congr rfl fun c _ => by rw [hl c, hr c]

/-- Halving the negation of an extended real is multiplying it by minus one half: division by the real `2` is the
    product with `1/2`, and a sign moves freely across a product — also at the two infinities. -/
theorem div_neg_two (d : EReal) : Ideal.div (-d) ((2 : ℝ) : EReal) = d * ((-(1 / 2) : ℝ) : EReal) := by
  rw [Ideal.div_coe (by norm_num : (2 : ℝ) ≠ 0), EReal.coe_neg, mul_neg, neg_mul]

end Cert.Lib.Gram

end
-- ==== Proof.LibRowOps.lean ====
/-
  Two readings, at an entry, of operations on the rows of a matrix, for any sizes.

  A sum along the lanes of an `n × k` array gives one number per row: at row `r` it is the sum of that row's `k`
  entries.  An `a × 1` column spread over `b` lanes repeats each row's one entry along the row: at `(p, c)` it reads
  the column's entry of row `p`, whatever the lane `c` (also when `a = 1`).
-/
import Idealize.ShloMosaic.Lib.Pipeline.Value
import Idealize.ShloMosaic.Lib.ValueIdx
import Idealize.ShloMosaic.PureOps.Ideal.Laws

noncomputable section

open scoped BigOperators

namespace Cert.Lib.RowOps

open Idealize.ShloMosaic Idealize.ShloMosaic.ValueIdx

/-- A sum along the lanes of an `n × k` array from the zero word reads, at row `r`, the sum of that row's entries. -/
theorem laneSum_apply {n k : ℕ} (src : FVec Ideal ⟨2, ![n, k]⟩ .f32) (h : (⟨2, ![n, k]⟩ : Shape).Reduces [1] ⟨1, ![n]⟩)
    (hφ : FKind.Formats .f32) (hacc : (0x00000000#32 : BitVec 32) = 0x00000000#32) (r : Fin n) :
    multiReduction .add [1] ⟨1, ![n]⟩ src 0x00000000#32 h hφ hacc (ix1 r) = ∑ c : Fin k, src (ix2 r c) := by
  refine (Ideal.multiReduction_add_single src 0x00000000#32 h hφ hacc (ix1 r)).trans ?_
  exact Finset.sum_congr rfl fun c _ => congrArg src (funext fun ax => Fin.ext (by
    match ax with
    | ⟨0, _⟩ => rfl
    | ⟨1, _⟩ => rfl))

/-- An `a × 1` column spread over `b` lanes reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib.RowOps

end
-- ==== Proof.KernelIdealPayload.lean ====
/-
  The value the body stores, entry by entry, over the extended reals.

  With the seven loads as variables — the weight matrix's columns 0..7 (`v0`) and 8..9 (`v3`), the activation tile's
  rows 0..7 (`v1`) and 8..9 (`v4`), the hidden bias as a row (`v7`), the read-out row (`v14`) and the output bias
  (`v16`) — the stored row reads, at batch column `q` of the tile,

      (∑ j < 5, v14[0, j] · max ((∑ k < 8, v0[j, k] · v1[k, q]) + (∑ k < 2, v3[j, k] · v4[k, q]) + v7[0, j]) 0) + v16[0, 0]:

  each matrix product accumulates from the zero word, the hidden bias is transposed to a column and spread along the
  lanes, the positive part is the maximum with the zero word.
-/
import proofs.«153465_g2000604993931757_pallaspilot1_154_16_alg».proof.Proof.Gen.KernelIdeal.Skeleton
import proofs.«153465_g2000604993931757_pallaspilot1_154_16_alg».proof.Proof.LibGram
import proofs.«153465_g2000604993931757_pallaspilot1_154_16_alg».proof.Proof.LibRowOps
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.ValueIdx

/-- The hidden layer of a tile: the positive part of the two partial products' sum plus the bias column. -/
def hid (v0 : Vec Ideal S5x8 .f32) (v1 : Vec Ideal S8x131072 .f32) (v3 : Vec Ideal S5x2 .f32) (v4 : Vec Ideal S2x131072 .f32)
    (v7 : Vec Ideal S1x5 .f32) : FVec Ideal S5x131072 .f32 :=
  maximumf
    (addf
      (addf (matmul (φ₁ := .f32) (φ₂ := .f32) dot_S5x8_S8x131072_S5x131072_1_0_0_1_n_n none v0 v1 (constant (F := Ideal) S5x131072 .f32 0x00000000#32))
        (matmul (φ₁ := .f32) (φ₂ := .f32) dot_S5x2_S2x131072_S5x131072_1_0_0_1_n_n none v3 v4 (constant (F := Ideal) S5x131072 .f32 0x00000000#32)))
      (broadcastTo S5x131072 (transpose S5x1 [1, 0] (shapeCast S1x5 v7 Facts₀.shapeCasts_S1x5_S1x5) Facts₀.transposes_S1x5_p1_0_S5x1) Facts₀.broadcasts_S5x1_S5x131072))
    (broadcast S5x131072 (Scalar.ofBits (F := Ideal) .f32 0x00000000#32))

/-- The stored payload is the read-out of the hidden layer plus the output bias spread along the lanes. -/
theorem pay_eq (v0 : Vec Ideal S5x8 .f32) (v1 : Vec Ideal S8x131072 .f32) (v3 : Vec Ideal S5x2 .f32) (v4 : Vec Ideal S2x131072 .f32)
    (v7 v14 : Vec Ideal S1x5 .f32) (v16 : Vec Ideal S1x1 .f32) :
    k0_pay1 (F := Ideal) v0 v1 v3 v4 v7 v14 v16
      = addf (matmul (φ₁ := .f32) (φ₂ := .f32) dot_S1x5_S5x131072_S1x131072_1_0_0_1_n_n none v14 (hid v0 v1 v3 v4 v7) (constant (F := Ideal) S1x131072 .f32 0x00000000#32))
          (broadcastTo S1x131072 (shapeCast S1x1 v16 Facts₀.shapeCasts_S1x1_S1x1) Facts₀.broadcasts_S1x1_S1x131072) := rfl

/-- The first partial product at `(j, q)`: the eight leading features. -/
theorem mm8_apply (v0 : Vec Ideal S5x8 .f32) (v1 : Vec Ideal S8x131072 .f32) (j : Fin 5) (q : Fin 131072) :
    matmul (φ₁ := .f32) (φ₂ := .f32) dot_S5x8_S8x131072_S5x131072_1_0_0_1_n_n none v0 v1 (constant (F := Ideal) S5x131072 .f32 0x00000000#32) (ix2 j q)
      = ∑ k : Fin 8, v0 (ix2 j k) * v1 (ix2 k q) :=
  Cert.Lib.Gram.matmul_zero_single_apply (φ₁ := .f32) (φ₂ := .f32) dot_S5x8_S8x131072_S5x131072_1_0_0_1_n_n 8 rfl rfl none v0 v1 (ix2 j q)
    (fun k => ix2 j k) (fun k => ix2 k q)
    (fun c => funext fun a => Fin.ext (by
      match a with
      | ⟨0, _⟩ => rfl
      | ⟨1, _⟩ => exact (DotDims.lhsIdx_val_of_single _ rfl _ _).trans (contrEquiv1_symm_val _ 8 rfl rfl c)))
    (fun c => funext fun a => Fin.ext (by
      match a with
      | ⟨0, _⟩ => exact (DotDims.rhsIdx_val_of_single _ rfl _ _).trans (contrEquiv1_symm_val _ 8 rfl rfl c)
      | ⟨1, _⟩ => rfl))

/-- The second partial product at `(j, q)`: the two trailing features. -/
theorem mm2_apply (v3 : Vec Ideal S5x2 .f32) (v4 : Vec Ideal S2x131072 .f32) (j : Fin 5) (q : Fin 131072) :
    matmul (φ₁ := .f32) (φ₂ := .f32) dot_S5x2_S2x131072_S5x131072_1_0_0_1_n_n none v3 v4 (constant (F := Ideal) S5x131072 .f32 0x00000000#32) (ix2 j q)
      = ∑ k : Fin 2, v3 (ix2 j k) * v4 (ix2 k q) :=
  Cert.Lib.Gram.matmul_zero_single_apply (φ₁ := .f32) (φ₂ := .f32) dot_S5x2_S2x131072_S5x131072_1_0_0_1_n_n 2 rfl rfl none v3 v4 (ix2 j q)
    (fun k => ix2 j k) (fun k => ix2 k q)
    (fun c => funext fun a => Fin.ext (by
      match a with
      | ⟨0, _⟩ => rfl
      | ⟨1, _⟩ => exact (DotDims.lhsIdx_val_of_single _ rfl _ _).trans (contrEquiv1_symm_val _ 2 rfl rfl c)))
    (fun c => funext fun a => Fin.ext (by
      match a with
      | ⟨0, _⟩ => exact (DotDims.rhsIdx_val_of_single _ rfl _ _).trans (contrEquiv1_symm_val _ 2 rfl rfl c)
      | ⟨1, _⟩ => rfl))

/-- The read-out product at `(0, q)`: over the five hidden units. -/
theorem mm5_apply (v14 : Vec Ideal S1x5 .f32) (h : FVec Ideal S5x131072 .f32) (q : Fin 131072) :
    matmul (φ₁ := .f32) (φ₂ := .f32) dot_S1x5_S5x131072_S1x131072_1_0_0_1_n_n none v14 h (constant (F := Ideal) S1x131072 .f32 0x00000000#32) (ix2 (0 : Fin 1) q)
      = ∑ j : Fin 5, v14 (ix2 (0 : Fin 1) j) * h (ix2 j q) :=
  Cert.Lib.Gram.matmul_zero_single_apply (φ₁ := .f32) (φ₂ := .f32) dot_S1x5_S5x131072_S1x131072_1_0_0_1_n_n 5 rfl rfl none v14 h (ix2 (0 : Fin 1) q)
    (fun k => ix2 (0 : Fin 1) k) (fun k => ix2 k q)
    (fun c => funext fun a => Fin.ext (by
      match a with
      | ⟨0, _⟩ => rfl
      | ⟨1, _⟩ => exact (DotDims.lhsIdx_val_of_single _ rfl _ _).trans (contrEquiv1_symm_val _ 5 rfl rfl c)))
    (fun c => funext fun a => Fin.ext (by
      match a with
      | ⟨0, _⟩ => exact (DotDims.rhsIdx_val_of_single _ rfl _ _).trans (contrEquiv1_symm_val _ 5 rfl rfl c)
      | ⟨1, _⟩ => rfl))

/-- The bias row, transposed to a column and spread along the lanes, reads at `(j, q)` the row's entry `j`. -/
theorem bias_apply (v7 : Vec Ideal S1x5 .f32) (j : Fin 5) (q : Fin 131072) :
    broadcastTo S5x131072 (transpose S5x1 [1, 0] (shapeCast S1x5 v7 Facts₀.shapeCasts_S1x5_S1x5) Facts₀.transposes_S1x5_p1_0_S5x1) Facts₀.broadcasts_S5x1_S5x131072 (ix2 j q)
      = v7 (ix2 (0 : Fin 1) j) := by
  rw [shapeCast_self]
  refine (Cert.Lib.RowOps.broadcastTo_a1_ab_apply _ Facts₀.broadcasts_S5x1_S5x131072 j q).trans ?_
  exact transpose_ix2_apply v7 Facts₀.transposes_S1x5_p1_0_S5x1 j (0 : Fin 1)

/-- A hidden unit at a batch column. -/
theorem hid_apply (v0 : Vec Ideal S5x8 .f32) (v1 : Vec Ideal S8x131072 .f32) (v3 : Vec Ideal S5x2 .f32) (v4 : Vec Ideal S2x131072 .f32)
    (v7 : Vec Ideal S1x5 .f32) (j : Fin 5) (q : Fin 131072) :
    hid v0 v1 v3 v4 v7 (ix2 j q)
      = max ((∑ k : Fin 8, v0 (ix2 j k) * v1 (ix2 k q)) + (∑ k : Fin 2, v3 (ix2 j k) * v4 (ix2 k q)) + v7 (ix2 (0 : Fin 1) j)) 0 := by
  unfold hid
  rw [maximumf_apply, addf_apply, addf_apply, mm8_apply, mm2_apply, bias_apply, broadcast_apply]
  show max _ (Ideal.ofBits .f32 0x00000000#32) = _
  rw [Ideal.ofBits_zero_f32]

/-- The stored row at batch column `q` of the tile. -/
theorem pay_apply (v0 : Vec Ideal S5x8 .f32) (v1 : Vec Ideal S8x131072 .f32) (v3 : Vec Ideal S5x2 .f32) (v4 : Vec Ideal S2x131072 .f32)
    (v7 v14 : Vec Ideal S1x5 .f32) (v16 : Vec Ideal S1x1 .f32) (q : Fin 131072) :
    k0_pay1 (F := Ideal) v0 v1 v3 v4 v7 v14 v16 (ix2 (0 : Fin 1) q)
      = (∑ j : Fin 5, v14 (ix2 (0 : Fin 1) j)
            * max ((∑ k : Fin 8, v0 (ix2 j k) * v1 (ix2 k q)) + (∑ k : Fin 2, v3 (ix2 j k) * v4 (ix2 k q)) + v7 (ix2 (0 : Fin 1) j)) 0)
          + v16 (ix2 (0 : Fin 1) (0 : Fin 1)) := by
  rw [pay_eq, addf_apply, mm5_apply, shapeCast_self]
  refine congrArg₂ (· + ·) (Finset.sum_congr rfl fun j _ => by rw [hid_apply]) ?_
  exact Cert.Lib.RowOps.broadcastTo_a1_ab_apply v16 Facts₀.broadcasts_S1x1_S1x131072 (0 : Fin 1) q

end Cert.KernelIdeal.Hand

end
-- ==== Proof.Spec.lean ====
/-
  The network both programs compute, as one function of the five argument arrays, entry by entry, over the
  extended reals: a hidden layer of five units, each the positive part of an affine form of the ten features
  of a batch column, followed by one affine read-out,

      out[0, b] = (∑ j < 5, w2[0, j] · max (∑ k < 10, w1[j, k] · x[k, b] + b1[j]) 0) + b2[0].
-/
import Idealize.ShloMosaic.PureOps.Ideal
import Idealize.ShloMosaic.Lib.ValueIdx

noncomputable section

open scoped BigOperators

namespace Cert.Spec

open Idealize.ShloMosaic Idealize.ShloMosaic.ValueIdx

/-- Hidden unit `j` at batch column `b`: the positive part of `∑ k, w1[j, k] · x[k, b] + b1[j]`. -/
def hidden (x : FVec Ideal ⟨2, ![10, 2097152]⟩ .f32) (w1 : FVec Ideal ⟨2, ![5, 10]⟩ .f32)
    (b1 : FVec Ideal ⟨1, ![5]⟩ .f32) (j : Fin 5) (b : Fin 2097152) : EReal :=
  max ((∑ k : Fin 10, w1 (ix2 j k) * x (ix2 k b)) + b1 (ix1 j)) 0

/-- The network's output row: `out[0, b] = (∑ j, w2[0, j] · hidden j b) + b2[0]`. -/
def out (x : FVec Ideal ⟨2, ![10, 2097152]⟩ .f32) (w1 : FVec Ideal ⟨2, ![5, 10]⟩ .f32)
    (b1 : FVec Ideal ⟨1, ![5]⟩ .f32) (w2 : FVec Ideal ⟨2, ![1, 5]⟩ .f32) (b2 : FVec Ideal ⟨1, ![1]⟩ .f32) :
    FVec Ideal ⟨2, ![1, 2097152]⟩ .f32 :=
  fun i => (∑ j : Fin 5, w2 (ix2 0 j) * hidden x w1 b1 j (i 1)) + b2 (ix1 0)

end Cert.Spec

end
-- ==== Proof.KernelIdealValue.lean ====
/-
  The streamed network's output row, after the run, is the specification's function of the five argument arrays.

  Point `t` of the grid stores the tile of batch columns `t · 131072 … t · 131072 + 131071`.  The body's loads at that
  point are: the weight matrix's entries (the parameter windows have one block), the activation array's rows 0..7 and
  8..9 at those columns (its two windows sit at row blocks 0 and 1 of the same column block), and the two biases
  through the reshapes that precede the region.  The sum over the ten features is the sum over the eight leading
  ones plus the sum over the two trailing ones.  The sixteen tiles cover the row.
-/
import proofs.«153465_g2000604993931757_pallaspilot1_154_16_alg».proof.Proof.KernelIdealRun
import proofs.«153465_g2000604993931757_pallaspilot1_154_16_alg».proof.Proof.KernelIdealPayload
import proofs.«153465_g2000604993931757_pallaspilot1_154_16_alg».proof.Proof.Spec
import Idealize.ShloMosaic.Lib.StableHlo.Run

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

/-! ## The algebra: ten features as eight and two -/

/-- A sum over ten terms is the sum of the first eight plus the sum of the last two. -/
theorem sum_ten (f : Fin 10 → EReal) :
    ∑ k : Fin 10, f k = (∑ k : Fin 8, f ⟨k.val, by omega⟩) + ∑ k : Fin 2, f ⟨8 + k.val, by omega⟩ := by
  show ∑ k : Fin (8 + 2), f k = _
  rw [Fin.sum_univ_add]
  rfl

/-- The stored row at column `q` of a tile is the specification's output at the column the tile puts `q` at, when
    the seven loads read the arrays there. -/
theorem pay_spec (X : FVec Ideal ⟨2, ![10, 2097152]⟩ .f32) (W1 : FVec Ideal ⟨2, ![5, 10]⟩ .f32) (B1 : FVec Ideal ⟨1, ![5]⟩ .f32)
    (W2 : FVec Ideal ⟨2, ![1, 5]⟩ .f32) (B2 : FVec Ideal ⟨1, ![1]⟩ .f32)
    (v0 : Vec Ideal S5x8 .f32) (v1 : Vec Ideal S8x131072 .f32) (v3 : Vec Ideal S5x2 .f32) (v4 : Vec Ideal S2x131072 .f32)
    (v7 v14 : Vec Ideal S1x5 .f32) (v16 : Vec Ideal S1x1 .f32) (q : Fin 131072) (b : Fin 2097152)
    (h0 : ∀ (j : Fin 5) (k : Fin 8), v0 (ix2 j k) = W1 (ix2 j ⟨k.val, by omega⟩))
    (h3 : ∀ (j : Fin 5) (k : Fin 2), v3 (ix2 j k) = W1 (ix2 j ⟨8 + k.val, by omega⟩))
    (h1 : ∀ k : Fin 8, v1 (ix2 k q) = X (ix2 ⟨k.val, by omega⟩ b))
    (h4 : ∀ k : Fin 2, v4 (ix2 k q) = X (ix2 ⟨8 + k.val, by omega⟩ b))
    (h7 : ∀ j : Fin 5, v7 (ix2 (0 : Fin 1) j) = B1 (ix1 j))
    (h14 : ∀ j : Fin 5, v14 (ix2 (0 : Fin 1) j) = W2 (ix2 (0 : Fin 1) j))
    (h16 : v16 (ix2 (0 : Fin 1) (0 : Fin 1)) = B2 (ix1 (0 : Fin 1))) :
    k0_pay1 (F := Ideal) v0 v1 v3 v4 v7 v14 v16 (ix2 (0 : Fin 1) q) = Cert.Spec.out X W1 B1 W2 B2 (ix2 (0 : Fin 1) b) := by
  rw [pay_apply]
  unfold Cert.Spec.out Cert.Spec.hidden
  rw [h16]
  refine congrArg (· + B2 (ix1 (0 : Fin 1))) (Finset.sum_congr rfl fun j _ => ?_)
  rw [h14 j, h7 j, sum_ten]
  refine congrArg (fun z => W2 (ix2 (0 : Fin 1) j) * max (z + B1 (ix1 j)) 0) ?_
  refine congrArg₂ (· + ·) (Finset.sum_congr rfl fun k _ => ?_) (Finset.sum_congr rfl fun k _ => ?_)
  · rw [h0 j k, h1 k]
  · rw [h3 j k, h4 k]

/-! ## The loads at a grid point -/

variable (m : (ℓ : Loc nD τ sig) → Buf (Elt Ideal) ℓ) (ρ : Dev nD → PrngReg)

theorem hz : (![0, 0] : Fin 2 → Nat) = fun _ => 0 := funext fun a => by fin_cases a <;> rfl

/-- The printed index maps, decided over the grid: the parameter windows stay at block (0, 0); the activation
    windows sit at row blocks 0 and 1 of column block `t`; the output at column block `t`. -/
theorem idx_facts : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = t.val
    ∧ win0_5.index t (0 : Fin 2) = 1 ∧ win0_5.index t (1 : Fin 2) = t.val
    ∧ win0_6.index t (0 : Fin 2) = 0 ∧ win0_6.index t (1 : Fin 2) = t.val :=
  (by decide +kernel : ∀ t : Fin grid0.N, _)

/-- The batch column that column `q` of tile `t` is. -/
def col (t : Fin cfg0.N) (q : Fin 131072) : Fin 2097152 :=
  ⟨t.val * 131072 + q.val, by have := lt_of_lt_of_eq t.isLt N_0; have := q.isLt; omega⟩

/-- The region finds the hidden bias as a 1x5 row and the output bias as a 1x1 matrix: the two reshapes. -/
theorem V_v0 (c : Dev nD) : (V m c main_v0 : S1x5.Idx → EReal) = shapeCast S1x5 (m ((c : Thread nD τ).loc main_arg2)) Facts₀.shapeCasts_S5_S1x5 := by
  dsimp only [V, hostOps0]; after_results; rfl
theorem V_v1 (c : Dev nD) : (V m c main_v1 : S1x1.Idx → EReal) = shapeCast S1x1 (m ((c : Thread nD τ).loc main_arg4)) Facts₀.shapeCasts_S1_S1x1 := by
  dsimp only [V, hostOps0]; after_results; rfl

/-- On an element the fetch fills, a filled buffer holds the fetched element. -/
theorem fill_of_moved {G : Pipeline.Grid} (w : Pipeline.Window sig G) {α : Type} (i : G.Coords) (d : w.block.Idx → α)
    (g : (w.xblock i).Idx → α) (j : w.block.Idx) (h : w.moved i j = true) :
    w.fill i d g j = g fun a => ⟨(j a).val, (w.moved_iff i j).mp h a⟩ := by
  unfold Pipeline.Window.fill; rw [dif_pos h]

theorem moved5 (t : Fin cfg0.N) (x : rXb.shape.Idx) : win0_5.moved (grid0.coords t) (rXb.emb x) = true := by
  refine (win0_5.moved_iff _ _).mpr fun a => ?_
  have h0 : (x 0).val < 2 := (x 0).isLt
  have h1 : (x 1).val < 131072 := (x 1).isLt
  match a with
  | ⟨0, _⟩ =>
    show (rXb.emb x (0 : Fin 2)).val < win0_5.xsize (grid0.coords t) (0 : Fin 2)
    rw [(xsize5 t).1, Rect.emb_apply]; show 0 + 1 * (x 0).val < 2; omega
  | ⟨1, _⟩ =>
    show (rXb.emb x (1 : Fin 2)).val < win0_5.xsize (grid0.coords t) (1 : Fin 2)
    rw [(xsize5 t).2, Rect.emb_apply]; show 0 + 1 * (x 1).val < 131072; omega

/-- The weight matrix's leading eight columns. -/
theorem read_w1a (c : Dev nD) (t : Fin cfg0.N) (j : Fin 5) (k : Fin 8) :
    View.ld (iblk m c 0 t) rW1a (ix2 j k) = m ((c : Thread nD τ).loc main_arg1) (ix2 j ⟨k.val, by omega⟩) := by
  show V m c main_arg1 (((cfg0.win 0).blk t).view.emb (rW1a.emb (ix2 j k))) = _
  rw [V_main_arg1]
  refine congrArg (m ((c : Thread nD τ).loc main_arg1)) (funext fun a => Fin.ext ?_)
  obtain ⟨e0, e1, -⟩ := idx_facts t
  match a with
  | ⟨0, _⟩ => show win0_0.index t (0 : Fin 2) * 5 + 1 * (0 + 1 * j.val) = j.val; omega
  | ⟨1, _⟩ => show win0_0.index t (1 : Fin 2) * 10 + 1 * (0 + 1 * k.val) = k.val; omega

/-- The weight matrix's trailing two columns. -/
theorem read_w1b (c : Dev nD) (t : Fin cfg0.N) (j : Fin 5) (k : Fin 2) :
    View.ld (iblk m c 0 t) rW1b (ix2 j k) = m ((c : Thread nD τ).loc main_arg1) (ix2 j ⟨8 + k.val, by omega⟩) := by
  show V m c main_arg1 (((cfg0.win 0).blk t).view.emb (rW1b.emb (ix2 j k))) = _
  rw [V_main_arg1]
  refine congrArg (m ((c : Thread nD τ).loc main_arg1)) (funext fun a => Fin.ext ?_)
  obtain ⟨e0, e1, -⟩ := idx_facts t
  match a with
  | ⟨0, _⟩ => show win0_0.index t (0 : Fin 2) * 5 + 1 * (0 + 1 * j.val) = j.val; omega
  | ⟨1, _⟩ => show win0_0.index t (1 : Fin 2) * 10 + 1 * (8 + 1 * k.val) = 8 + k.val; omega

/-- The activation tile's feature rows 0..7. -/
theorem read_xa (c : Dev nD) (t : Fin cfg0.N) (k : Fin 8) (q : Fin 131072) :
    View.ld (xa m c t) rXa (ix2 k q) = m ((c : Thread nD τ).loc main_arg0) (ix2 ⟨k.val, by omega⟩ (col t q)) := by
  show xa m c t (rXa.emb (ix2 k q)) = _
  unfold xa
  rw [fill_of_moved win0_4 _ _ _ _ (moved4 t _)]
  show V m c main_arg0 (((cfg0.win 4).blk t).view.emb _) = _
  rw [V_main_arg0]
  refine congrArg (m ((c : Thread nD τ).loc main_arg0)) (funext fun a => Fin.ext ?_)
  obtain ⟨-, -, -, -, -, -, -, -, e0, e1, -⟩ := idx_facts t
  match a with
  | ⟨0, _⟩ => show win0_4.index t (0 : Fin 2) * 8 + 1 * (0 + 1 * k.val) = k.val; omega
  | ⟨1, _⟩ => show win0_4.index t (1 : Fin 2) * 131072 + 1 * (0 + 1 * q.val) = t.val * 131072 + q.val; omega

/-- The activation tile's feature rows 8..9: rows 0..1 of the second window's buffer. -/
theorem read_xb (c : Dev nD) (t : Fin cfg0.N) (k : Fin 2) (q : Fin 131072) :
    View.ld (xb m c t) rXb (ix2 k q) = m ((c : Thread nD τ).loc main_arg0) (ix2 ⟨8 + k.val, by omega⟩ (col t q)) := by
  show xb m c t (rXb.emb (ix2 k q)) = _
  unfold xb
  rw [fill_of_moved win0_5 _ _ _ _ (moved5 t _)]
  show V m c main_arg0 (((cfg0.win 5).blk t).view.emb _) = _
  rw [V_main_arg0]
  refine congrArg (m ((c : Thread nD τ).loc main_arg0)) (funext fun a => Fin.ext ?_)
  obtain ⟨-, -, -, -, -, -, -, -, -, -, e0, e1, -⟩ := idx_facts t
  match a with
  | ⟨0, _⟩ => show win0_5.index t (0 : Fin 2) * 8 + 1 * (0 + 1 * k.val) = 8 + k.val; omega
  | ⟨1, _⟩ => show win0_5.index t (1 : Fin 2) * 131072 + 1 * (0 + 1 * q.val) = t.val * 131072 + q.val; omega

/-- The hidden bias, through its reshape to a row. -/
theorem read_b1 (c : Dev nD) (t : Fin cfg0.N) (j : Fin 5) :
    View.ld (iblk m c 1 t) rRow (ix2 (0 : Fin 1) j) = m ((c : Thread nD τ).loc main_arg2) (ix1 j) := by
  show V m c main_v0 (((cfg0.win 1).blk t).view.emb (rRow.emb (ix2 (0 : Fin 1) j))) = _
  have e : ((cfg0.win 1).blk t).view.emb (rRow.emb (ix2 (0 : Fin 1) j)) = ix2 (0 : Fin 1) j := funext fun a => Fin.ext (by
    obtain ⟨-, -, e0, e1, -⟩ := idx_facts t
    match a with
    | ⟨0, _⟩ => show win0_1.index t (0 : Fin 2) * 1 + 1 * (0 + 1 * 0) = 0; omega
    | ⟨1, _⟩ => show win0_1.index t (1 : Fin 2) * 5 + 1 * (0 + 1 * j.val) = j.val; omega)
  rw [e, V_v0]
  exact shapeCast_apply _ _ (ix2 (0 : Fin 1) j) (ix1 j) (by
    rw [Shape.rowMajor_val_one, Shape.rowMajor_val_two]; show j.val = 0 * 5 + j.val; omega)

/-- The read-out row. -/
theorem read_w2 (c : Dev nD) (t : Fin cfg0.N) (j : Fin 5) :
    View.ld (iblk m c 2 t) rRow (ix2 (0 : Fin 1) j) = m ((c : Thread nD τ).loc main_arg3) (ix2 (0 : Fin 1) j) := by
  show V m c main_arg3 (((cfg0.win 2).blk t).view.emb (rRow.emb (ix2 (0 : Fin 1) j))) = _
  rw [V_main_arg3]
  refine congrArg (m ((c : Thread nD τ).loc main_arg3)) (funext fun a => Fin.ext ?_)
  obtain ⟨-, -, -, -, e0, e1, -⟩ := idx_facts t
  match a with
  | ⟨0, _⟩ => show win0_2.index t (0 : Fin 2) * 1 + 1 * (0 + 1 * 0) = 0; omega
  | ⟨1, _⟩ => show win0_2.index t (1 : Fin 2) * 5 + 1 * (0 + 1 * j.val) = j.val; omega

/-- The output bias, through its reshape to a 1x1 matrix. -/
theorem read_b2 (c : Dev nD) (t : Fin cfg0.N) :
    View.ld (iblk m c 3 t) rOne (ix2 (0 : Fin 1) (0 : Fin 1)) = m ((c : Thread nD τ).loc main_arg4) (ix1 (0 : Fin 1)) := by
  show V m c main_v1 (((cfg0.win 3).blk t).view.emb (rOne.emb (ix2 (0 : Fin 1) (0 : Fin 1)))) = _
  have e : ((cfg0.win 3).blk t).view.emb (rOne.emb (ix2 (0 : Fin 1) (0 : Fin 1))) = ix2 (0 : Fin 1) (0 : Fin 1) := funext fun a => Fin.ext (by
    obtain ⟨-, -, -, -, -, -, e0, e1, -⟩ := idx_facts t
    match a with
    | ⟨0, _⟩ => show win0_3.index t (0 : Fin 2) * 1 + 1 * (0 + 1 * 0) = 0; omega
    | ⟨1, _⟩ => show win0_3.index t (1 : Fin 2) * 1 + 1 * (0 + 1 * 0) = 0; omega)
  rw [e, V_v1]
  exact shapeCast_apply _ _ (ix2 (0 : Fin 1) (0 : Fin 1)) (ix1 (0 : Fin 1)) (by
    rw [Shape.rowMajor_val_one, Shape.rowMajor_val_two]; rfl)

/-! ## From tiles to the row -/

/-- The specification's output row of the launched argument arrays. -/
abbrev specOut (c : Dev nD) : S1x2097152.Idx → Elt Ideal .f32 :=
  Cert.Spec.out (m ((c : Thread nD τ).loc main_arg0)) (m ((c : Thread nD τ).loc main_arg1)) (m ((c : Thread nD τ).loc main_arg2))
    (m ((c : Thread nD τ).loc main_arg3)) (m ((c : Thread nD τ).loc main_arg4))

/-- What point `t` writes back is tile `t` of the specification's row. -/
theorem flushed_eq (c : Dev nD) (t : Fin cfg0.N) :
    (dats m 0 c).flushed 6 t = ((cfg0.win 6).blk t).view.read (Elt Ideal) (specOut m c) := by
  show (cfg0.win 6).cut (grid0.coords t) ((dats m 0 c).after 6 t) = _
  rw [after0_6]
  unfold outBlk
  rw [View.canon_unit_zero hz]
  show (k0_pay1 (F := Ideal) _ _ _ _ _ _ _ : S1x131072.Idx → EReal) = fun y => specOut m c (((cfg0.win 6).blk t).view.emb y)
  funext y
  obtain ⟨p, q, rfl⟩ : ∃ (p : Fin 1) (q : Fin 131072), y = ix2 p q := ⟨y 0, y 1, eq_ix2 y⟩
  obtain rfl : p = 0 := Subsingleton.elim _ _
  have e6 : ((cfg0.win 6).blk t).view.emb (ix2 (0 : Fin 1) q) = ix2 (0 : Fin 1) (col t q) := funext fun a => Fin.ext (by
    obtain ⟨-, -, -, -, -, -, -, -, -, -, -, -, e0, e1⟩ := idx_facts t
    match a with
    | ⟨0, _⟩ => show win0_6.index t (0 : Fin 2) * 1 + 1 * 0 = 0; omega
    | ⟨1, _⟩ => show win0_6.index t (1 : Fin 2) * 131072 + 1 * q.val = t.val * 131072 + q.val; omega)
  show _ = specOut m c (((cfg0.win 6).blk t).view.emb (ix2 (0 : Fin 1) q))
  rw [e6]
  exact pay_spec _ _ _ _ _ _ _ _ _ _ _ _ q (col t q) (read_w1a m c t) (read_w1b m c t) (fun k => read_xa m c t k q) (fun k => read_xb m c t k q)
    (read_b1 m c t) (read_w2 m c t) (read_b2 m c t)

/-- A column of the row is in tile `t` iff it lies in the tile's range. -/
theorem mem_blk6 (t : Fin cfg0.N) (i : S1x2097152.Idx) :
    i ∈ ((cfg0.win 6).blk t).view.set ↔ ∀ a : Fin 2, win0_6.index t a * S1x131072.size a ≤ (i a).val ∧ (i a).val < win0_6.index t a * S1x131072.size a + S1x131072.size a := by
  show i ∈ ((View.whole main_v2).slice (win0_6.rect t)).set ↔ _
  rw [View.set_slice_whole, Rect.mem_set_unit]
  exact Iff.rfl

/-- The sixteen tiles cover the row: column `b` is in tile `b / 131072`. -/
theorem cover6 (i : S1x2097152.Idx) : ∃ t : Fin cfg0.N, (cfg0.win 6).flush t = true ∧ i ∈ ((cfg0.win 6).blk t).view.set := by
  have hi0 : (i 0).val < 1 := (i 0).isLt
  have hi1 : (i 1).val < 2097152 := (i 1).isLt
  have hN : (i 1).val / 131072 < cfg0.N := by show _ < grid0.N; rw [N_0]; omega
  refine ⟨⟨(i 1).val / 131072, hN⟩, flush0_6 _, ?_⟩
  rw [mem_blk6]
  obtain ⟨-, -, -, -, -, -, -, -, -, -, -, -, e0, e1⟩ := idx_facts ⟨(i 1).val / 131072, hN⟩
  have e1' : win0_6.index ⟨(i 1).val / 131072, hN⟩ (1 : Fin 2) = (i 1).val / 131072 := e1
  intro a
  match a with
  | ⟨0, _⟩ =>
    show win0_6.index ⟨(i 1).val / 131072, hN⟩ (0 : Fin 2) * 1 ≤ (i 0).val ∧ (i 0).val < win0_6.index ⟨(i 1).val / 131072, hN⟩ (0 : Fin 2) * 1 + 1
    omega
  | ⟨1, _⟩ =>
    show win0_6.index ⟨(i 1).val / 131072, hN⟩ (1 : Fin 2) * 131072 ≤ (i 1).val ∧ (i 1).val < win0_6.index ⟨(i 1).val / 131072, hN⟩ (1 : Fin 2) * 131072 + 131072
    omega

/-- The output row after the run is the specification's. -/
theorem final (c : Dev nD) : (dats m 0 c).arrAt 6 cfg0.N = specOut m c :=
  (dats m 0 c).arrAt_eq_of_cover 6 (specOut m c) (fun t _ => flushed_eq m c t) cover6

/-! ## The run, read -/

/-- Every weakly fair execution of the idealized kernel's program ends with the result array at the specification's
    row of the launched arguments, and the arguments as launched. -/
theorem run : θ_run (defs (F := Ideal)) (onTc (τ := τ) (main (F := Ideal))) ⟨m, fun _ => 0, ρ⟩ fun r => ∀ c : Dev nD,
      r.2.mem ((c : Thread nD τ).loc main_v2) = specOut m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨((h c).1 6).trans (final m c),
      ((h c).1 4).trans (((dats m 0 c).arrAt_in 4 rfl _).trans ((A_eq m c 4).trans (V_main_arg0 m c))),
      ((h c).1 0).trans (((dats m 0 c).arrAt_in 0 rfl _).trans ((A_eq m c 0).trans (V_main_arg1 m c))),
      ((h c).2 main_arg2 (Pipeline.mem_restRefs_of main_arg2 (by decide) (by decide))).trans (V_main_arg2 m c),
      ((h c).1 2).trans (((dats m 0 c).arrAt_in 2 rfl _).trans ((A_eq m c 2).trans (V_main_arg3 m c))),
      ((h c).2 main_arg4 (Pipeline.mem_restRefs_of main_arg4 (by decide) (by decide))).trans (V_main_arg4 m c)⟩) (run_main m ρ)

end Cert.KernelIdeal.Hand

end
-- ==== Proof.LibScatter.lean ====
import Idealize.ShloMosaic.PureOps

/-!
# A scatter read at one index

`Host.scatter` is a left fold, over the update indices in row-major order, of "replace the operand's element at
the update's result index by the body applied to it and the update". Read at ONE operand index `k` the fold is
easy whenever at most one update lands on `k`:

* no update lands on `k`: the element is the operand's;
* exactly one update `j` lands on `k`: the element is the body applied to the operand's element and update `j`.

Both are statements about a left fold of point updates over a duplicate-free list, proved once for an abstract
step function and then read off `Host.scatter`'s definition.
-/

namespace Idealize.ShloMosaic.ScatterRead

section Fold

variable {ι κ α : Type} (step : (κ → α) → ι → (κ → α)) (ρ : ι → Option κ) (g : ι → α) (f : α → α → α) (k : κ)

/-- A fold of steps none of which touches `k` leaves the element at `k` alone. -/
theorem foldl_apply_of_forall_ne (hmiss : ∀ r n, ρ n ≠ some k → step r n k = r k) :
    ∀ (L : List ι) (r : κ → α), (∀ n ∈ L, ρ n ≠ some k) → L.foldl step r k = r k
  | [], _, _ => rfl
  | a :: L, r, h => by
    rw [List.foldl_cons, foldl_apply_of_forall_ne hmiss L (step r a) fun n hn => h n (List.mem_cons_of_mem _ hn)]
    exact hmiss r a (h a List.mem_cons_self)

/-- A fold over a duplicate-free list in which exactly one step `j` touches `k` applies that step's body there. -/
theorem foldl_apply_of_unique (hmiss : ∀ r n, ρ n ≠ some k → step r n k = r k)
    (hhit : ∀ r n, ρ n = some k → step r n k = f (r k) (g n)) (j : ι) (hj : ρ j = some k) :
    ∀ (L : List ι) (r : κ → α), L.Nodup → j ∈ L → (∀ n ∈ L, ρ n = some k → n = j) →
      L.foldl step r k = f (r k) (g j)
  | [], _, _, hm, _ => absurd hm List.not_mem_nil
  | a :: L, r, hnd, hm, hu => by
    rw [List.foldl_cons]
    have hnd' := List.nodup_cons.mp hnd
    by_cases ha : a = j
    · subst ha
      rw [foldl_apply_of_forall_ne step ρ k hmiss L (step r a) fun n hn hρ => hnd'.1 (hu n (List.mem_cons_of_mem _ hn) hρ ▸ hn)]
      exact hhit r a hj
    · have hj' : j ∈ L := by
        rcases List.mem_cons.mp hm with h | h
        · exact absurd h.symm ha
        · exact h
      have hρa : ρ a ≠ some k := fun h => ha (hu a List.mem_cons_self h)
      rw [foldl_apply_of_unique hmiss hhit j hj L (step r a) hnd'.2 hj' fun n hn => hu n (List.mem_cons_of_mem _ hn),
        hmiss r a hρa]

end Fold

variable {s si u : Shape} {α : Type} {w : Nat}

/-- The two facts about one step of `Host.scatter`'s fold, read at a fixed operand index `k`. -/
private theorem step_miss (d : ScatterDims s si u) (f : α → α → α) (idx : IVec si w) (upd : u.Idx → α) (k : s.Idx)
    (r : s.Idx → α) (n : Fin u.numel) (h : d.resultIdx? (u.rowMajor.symm n) idx ≠ some k) :
    (match d.resultIdx? (u.rowMajor.symm n) idx with
      | some i => fun i' => if i' = i then f (r i) (upd (u.rowMajor.symm n)) else r i'
      | none => r) k = r k := by
  cases hρ : d.resultIdx? (u.rowMajor.symm n) idx with
  | none => rfl
  | some i =>
    have hki : k ≠ i := fun e => h (by rw [hρ, e])
    show (if k = i then _ else r k) = r k
    rw [if_neg hki]

private theorem step_hit (d : ScatterDims s si u) (f : α → α → α) (idx : IVec si w) (upd : u.Idx → α) (k : s.Idx)
    (r : s.Idx → α) (n : Fin u.numel) (h : d.resultIdx? (u.rowMajor.symm n) idx = some k) :
    (match d.resultIdx? (u.rowMajor.symm n) idx with
      | some i => fun i' => if i' = i then f (r i) (upd (u.rowMajor.symm n)) else r i'
      | none => r) k = f (r k) (upd (u.rowMajor.symm n)) := by
  rw [h]
  show (if k = k then _ else r k) = _
  rw [if_pos rfl]

/-- An operand index on which NO update lands keeps the operand's element. -/
theorem scatter_apply_of_forall_ne (d : ScatterDims s si u) (f : α → α → α) (x : s.Idx → α) (idx : IVec si w)
    (upd : u.Idx → α) (k : s.Idx) (h : ∀ j : u.Idx, d.resultIdx? j idx ≠ some k) :
    Host.scatter d f x idx upd k = x k := by
  unfold Host.scatter
  exact foldl_apply_of_forall_ne _ (fun n => d.resultIdx? (u.rowMajor.symm n) idx) k
    (fun r n hn => step_miss d f idx upd k r n hn) _ x fun n _ => h _

/-- An operand index on which EXACTLY ONE update `j` lands holds the body applied to the operand's element and that
    update. -/
theorem scatter_apply_of_unique (d : ScatterDims s si u) (f : α → α → α) (x : s.Idx → α) (idx : IVec si w)
    (upd : u.Idx → α) (k : s.Idx) (j : u.Idx) (hj : d.resultIdx? j idx = some k)
    (hu : ∀ j' : u.Idx, d.resultIdx? j' idx = some k → j' = j) :
    Host.scatter d f x idx upd k = f (x k) (upd j) := by
  unfold Host.scatter
  refine (foldl_apply_of_unique _ (fun n => d.resultIdx? (u.rowMajor.symm n) idx) (fun n => upd (u.rowMajor.symm n)) f k
    (fun r n hn => step_miss d f idx upd k r n hn) (fun r n hn => step_hit d f idx upd k r n hn) (u.rowMajor j)
    (by show d.resultIdx? (u.rowMajor.symm (u.rowMajor j)) idx = some k; rw [Equiv.symm_apply_apply]; exact hj)
    (List.finRange u.numel) x (List.nodup_finRange _) (List.mem_finRange _)
    (fun n _ hn => by rw [← hu _ hn, Equiv.apply_symm_apply])).trans ?_
  show f (x k) (upd (u.rowMajor.symm (u.rowMajor j))) = _
  rw [Equiv.symm_apply_apply]

end Idealize.ShloMosaic.ScatterRead
-- ==== Proof.LibWords.lean ====
import Idealize.ShloMosaic.PureOps

/-!
# Small 32-bit words as the numbers they hold

A natural number below `2^31` written as a 32-bit word is non-negative as a signed integer and reads back as itself;
two numbers below `2^32` give equal words only when they are equal; and a word-level sum or product of small numbers
is the word of the sum or product. With these an index computed in 32-bit arithmetic is compared as a number.
-/

namespace Idealize.ShloMosaic.Words

/-- A number below `2^32` reads back from its word. -/
theorem toNat_ofNat_of_lt {n : ℕ} (h : n < 2 ^ 32) : (BitVec.ofNat 32 n).toNat = n := by
  rw [BitVec.toNat_ofNat]; exact Nat.mod_eq_of_lt h

/-- A number below `2^31` reads back from its word as a signed integer. -/
theorem toInt_ofNat_of_lt {n : ℕ} (h : n < 2 ^ 31) : (BitVec.ofNat 32 n).toInt = (n : ℤ) := by
  have hn : (BitVec.ofNat 32 n).toNat = n := toNat_ofNat_of_lt (by omega)
  rw [BitVec.toInt_eq_toNat_of_lt (by rw [hn]; omega), hn]

/-- Numbers below `2^32` with equal words are equal. -/
theorem ofNat_inj_of_lt {a b : ℕ} (ha : a < 2 ^ 32) (hb : b < 2 ^ 32) : BitVec.ofNat 32 a = BitVec.ofNat 32 b ↔ a = b := by
  constructor
  · intro h
    have := congrArg BitVec.toNat h
    rwa [toNat_ofNat_of_lt ha, toNat_ofNat_of_lt hb] at this
  · intro h; rw [h]

/-- A small number's word is not below zero as a signed integer. -/
theorem cmpi_slt_ofNat_zero {n : ℕ} (h : n < 2 ^ 31) : IntOp.cmpi .slt (BitVec.ofNat 32 n) 0#32 = 0#1 := by
  show BitVec.ofBool ((BitVec.ofNat 32 n).slt 0#32) = 0#1
  have : (BitVec.ofNat 32 n).slt 0#32 = false := by
    rw [BitVec.slt, toInt_ofNat_of_lt h]
    simp
  rw [this]; rfl

/-- Equality of the words of two numbers below `2^32` is equality of the numbers. -/
theorem cmpi_eq_ofNat {a b : ℕ} (ha : a < 2 ^ 32) (hb : b < 2 ^ 32) :
    IntOp.cmpi .eq (BitVec.ofNat 32 a) (BitVec.ofNat 32 b) = if a = b then 1#1 else 0#1 := by
  show BitVec.ofBool (BitVec.ofNat 32 a == BitVec.ofNat 32 b) = _
  by_cases h : a = b
  · rw [if_pos h, h]; simp
  · rw [if_neg h]
    have : (BitVec.ofNat 32 a == BitVec.ofNat 32 b) = false := by
      rw [beq_eq_false_iff_ne]; exact fun e => h ((ofNat_inj_of_lt ha hb).mp e)
    rw [this]; rfl

end Idealize.ShloMosaic.Words
-- ==== Proof.RefSlabRead.lean ====
/-
  The parameter slab: an `[8, 128]` array of zeros into which four scatters write the first layer's weights
  (rows 0–4, columns 0–9), the first layer's biases (rows 0–4, column 10), the read-out weights (rows 0–4,
  column 11) and the read-out bias (row 0, column 12). Read entry by entry.
-/
import proofs.«153465_g2000604993931757_pallaspilot1_154_16_alg».proof.Proof.Gen.ReferenceIdeal
import proofs.«153465_g2000604993931757_pallaspilot1_154_16_alg».proof.Proof.LibScatter
import proofs.«153465_g2000604993931757_pallaspilot1_154_16_alg».proof.Proof.LibWords
import Idealize.ShloMosaic.PureOps.Ideal
import Idealize.ShloMosaic.PureOps.Ideal.Laws
import Idealize.ShloMosaic.Lib.ValueIdx
import Idealize.ShloMosaic.Lib.ValueLayout

noncomputable section

namespace Cert.ReferenceIdeal.RefValue

open Cert.ReferenceIdeal Cert.ReferenceIdeal.Gen Idealize.ShloMosaic Idealize.ShloMosaic.ValueIdx

/-! ## When an update lands on an operand index -/

/-- Update index `j` lands on operand index `k` exactly when, on every operand axis, the window's start plus the
    window coordinate is `k`'s coordinate. -/
theorem resultIdx?_eq_some_iff {s si u : Shape} {w : Nat} (d : ScatterDims s si u) (j : u.Idx) (idx : IVec si w)
    (k : s.Idx) :
    d.resultIdx? j idx = some k ↔ ∀ a, d.start j idx a + (d.window j a : Int) = ((k a).val : Int) := by
  unfold ScatterDims.resultIdx?
  split
  · next h =>
    rw [Option.some.injEq]
    constructor
    · intro e a
      have e' : (d.start j idx a + (d.window j a : Int)).toNat = (k a).val := congrArg (fun f => (f a).val) e
      have h' := h a
      omega
    · intro e
      funext a
      apply Fin.ext
      show (d.start j idx a + (d.window j a : Int)).toNat = (k a).val
      have := e a
      omega
  · next h =>
    constructor
    · intro e; cases e
    · intro e
      exfalso
      apply h
      intro a
      have := e a
      have := (k a).isLt
      omega

/-! ## The start indices -/

/-- The two-word start-index vector `[a, b]`: two one-element vectors, each a broadcast scalar, concatenated. -/
def startIdx (a b : BitVec 32) : IVec S2 32 :=
  concatenate S2 0 [⟨S1, broadcastInDim S1 ![] bcast_S_S1 (constantI S_ 32 a)⟩,
    ⟨S1, broadcastInDim S1 ![] bcast_S_S1 (constantI S_ 32 b)⟩] concatenates_S1_S1_S2_d0

/-! ## One scatter read at an entry -/

/-- A `[5, 10]` block written at the corner `(0, 0)`: inside the block the update, elsewhere the operand. -/
theorem scatter_block_apply (x : FVec Ideal S8x128 .f32) (upd : FVec Ideal S5x10 .f32) (k : S8x128.Idx) :
    Host.scatter scatter_S8x128_S2_S5x10_01_n_01_0 (fun _ b => b) x (startIdx 0#32 0#32) upd k
      = if h : (k 0).val < 5 ∧ (k 1).val < 10 then upd (ix2 ⟨(k 0).val, h.1⟩ ⟨(k 1).val, h.2⟩) else x k := by
  have key : ∀ j : S5x10.Idx, scatter_S8x128_S2_S5x10_01_n_01_0.resultIdx? j (startIdx 0#32 0#32) = some k
      ↔ (j 0).val = (k 0).val ∧ (j 1).val = (k 1).val := by
    intro j
    rw [resultIdx?_eq_some_iff]
    constructor
    · intro e
      have e0 : (0#32 : BitVec 32).toInt + ((j 0).val : Int) = ((k 0).val : Int) := e 0
      have e1 : (0#32 : BitVec 32).toInt + ((j 1).val : Int) = ((k 1).val : Int) := e 1
      have z : (0#32 : BitVec 32).toInt = 0 := by decide
      rw [z] at e0 e1
      omega
    · rintro ⟨e0, e1⟩ a
      have z : (0#32 : BitVec 32).toInt = 0 := by decide
      match a with
      | ⟨0, _⟩ => show (0#32 : BitVec 32).toInt + ((j 0).val : Int) = ((k 0).val : Int); rw [z]; omega
      | ⟨1, _⟩ => show (0#32 : BitVec 32).toInt + ((j 1).val : Int) = ((k 1).val : Int); rw [z]; omega
  by_cases h : (k 0).val < 5 ∧ (k 1).val < 10
  · rw [dif_pos h]
    refine ScatterRead.scatter_apply_of_unique _ _ x _ upd k (ix2 ⟨(k 0).val, h.1⟩ ⟨(k 1).val, h.2⟩) ((key _).mpr ⟨rfl, rfl⟩) ?_
    intro j' hj'
    obtain ⟨e0, e1⟩ := (key j').mp hj'
    funext a
    apply Fin.ext
    match a with
    | ⟨0, _⟩ => exact e0
    | ⟨1, _⟩ => exact e1
  · rw [dif_neg h]
    refine ScatterRead.scatter_apply_of_forall_ne _ _ x _ upd k fun j e => h ?_
    obtain ⟨e0, e1⟩ := (key j).mp e
    have l0 : (j 0).val < 5 := (j 0).isLt
    have l1 : (j 1).val < 10 := (j 1).isLt
    omega

/-- A column of five written at `(0, col)`: rows 0–4 of that column the update, elsewhere the operand. -/
theorem scatter_col_apply (x : FVec Ideal S8x128 .f32) (upd : FVec Ideal S5 .f32) (col : ℕ) (hcol : col < 128)
    (k : S8x128.Idx) :
    Host.scatter scatter_S8x128_S2_S5_0_1_01_0 (fun _ b => b) x (startIdx 0#32 (BitVec.ofNat 32 col)) upd k
      = if h : (k 0).val < 5 ∧ (k 1).val = col then upd (ix1 ⟨(k 0).val, h.1⟩) else x k := by
  have z : (0#32 : BitVec 32).toInt = 0 := by decide
  have zc : (BitVec.ofNat 32 col).toInt = (col : Int) := Words.toInt_ofNat_of_lt (by omega)
  have key : ∀ j : S5.Idx, scatter_S8x128_S2_S5_0_1_01_0.resultIdx? j (startIdx 0#32 (BitVec.ofNat 32 col)) = some k
      ↔ (j 0).val = (k 0).val ∧ col = (k 1).val := by
    intro j
    rw [resultIdx?_eq_some_iff]
    constructor
    · intro e
      have e0 : (0#32 : BitVec 32).toInt + ((j 0).val : Int) = ((k 0).val : Int) := e 0
      have e1 : (BitVec.ofNat 32 col).toInt + ((0 : ℕ) : Int) = ((k 1).val : Int) := e 1
      rw [z] at e0
      rw [zc] at e1
      omega
    · rintro ⟨e0, e1⟩ a
      match a with
      | ⟨0, _⟩ => show (0#32 : BitVec 32).toInt + ((j 0).val : Int) = ((k 0).val : Int); rw [z]; omega
      | ⟨1, _⟩ => show (BitVec.ofNat 32 col).toInt + ((0 : ℕ) : Int) = ((k 1).val : Int); rw [zc]; omega
  by_cases h : (k 0).val < 5 ∧ (k 1).val = col
  · rw [dif_pos h]
    refine ScatterRead.scatter_apply_of_unique _ _ x _ upd k (ix1 ⟨(k 0).val, h.1⟩) ((key _).mpr ⟨rfl, h.2.symm⟩) ?_
    intro j' hj'
    obtain ⟨e0, -⟩ := (key j').mp hj'
    funext a
    apply Fin.ext
    match a with
    | ⟨0, _⟩ => exact e0
  · rw [dif_neg h]
    refine ScatterRead.scatter_apply_of_forall_ne _ _ x _ upd k fun j e => h ?_
    obtain ⟨e0, e1⟩ := (key j).mp e
    have l0 : (j 0).val < 5 := (j 0).isLt
    omega

/-- One element written at `(0, col)`. -/
theorem scatter_one_apply (x : FVec Ideal S8x128 .f32) (upd : FVec Ideal S_ .f32) (col : ℕ) (hcol : col < 128)
    (k : S8x128.Idx) :
    Host.scatter scatter_S8x128_S2_S__n_01_01_0 (fun _ b => b) x (startIdx 0#32 (BitVec.ofNat 32 col)) upd k
      = if (k 0).val = 0 ∧ (k 1).val = col then upd ix0 else x k := by
  have z : (0#32 : BitVec 32).toInt = 0 := by decide
  have zc : (BitVec.ofNat 32 col).toInt = (col : Int) := Words.toInt_ofNat_of_lt (by omega)
  have key : ∀ j : S_.Idx, scatter_S8x128_S2_S__n_01_01_0.resultIdx? j (startIdx 0#32 (BitVec.ofNat 32 col)) = some k
      ↔ 0 = (k 0).val ∧ col = (k 1).val := by
    intro j
    rw [resultIdx?_eq_some_iff]
    constructor
    · intro e
      have e0 : (0#32 : BitVec 32).toInt + ((0 : ℕ) : Int) = ((k 0).val : Int) := e 0
      have e1 : (BitVec.ofNat 32 col).toInt + ((0 : ℕ) : Int) = ((k 1).val : Int) := e 1
      rw [z] at e0
      rw [zc] at e1
      omega
    · rintro ⟨e0, e1⟩ a
      match a with
      | ⟨0, _⟩ => show (0#32 : BitVec 32).toInt + ((0 : ℕ) : Int) = ((k 0).val : Int); rw [z]; omega
      | ⟨1, _⟩ => show (BitVec.ofNat 32 col).toInt + ((0 : ℕ) : Int) = ((k 1).val : Int); rw [zc]; omega
  by_cases h : (k 0).val = 0 ∧ (k 1).val = col
  · rw [if_pos h]
    refine ScatterRead.scatter_apply_of_unique _ _ x _ upd k ix0 ((key _).mpr ⟨h.1.symm, h.2.symm⟩) ?_
    intro j' _
    exact eq_ix0 j'
  · rw [if_neg h]
    refine ScatterRead.scatter_apply_of_forall_ne _ _ x _ upd k fun j e => h ?_
    obtain ⟨e0, e1⟩ := (key j).mp e
    exact ⟨e0.symm, e1.symm⟩

/-! ## The slab -/

/-- The slab of zeros the scatters start from. -/
def zeroSlab : FVec Ideal S8x128 .f32 :=
  broadcastInDim S8x128 ![] bcast_S_S8x128 (constant (F := Ideal) S_ .f32 0x00000000#32)

theorem zeroSlab_apply (k : S8x128.Idx) : zeroSlab k = 0 := by
  show Ideal.ofBits .f32 0x00000000#32 = 0
  exact Ideal.ofBits_zero_f32

/-- THE SLAB: the zeros, then the first layer's weights at `(0, 0)`, its biases down column 10, the read-out
    weights (the `[1, 5]` row as a vector of five) down column 11, and the read-out bias (the one-element vector
    as a scalar) at `(0, 12)`. -/
def slab (w1 : FVec Ideal S5x10 .f32) (b1 : FVec Ideal S5 .f32) (w2 : FVec Ideal S1x5 .f32) (b2 : FVec Ideal S1 .f32) :
    FVec Ideal S8x128 .f32 :=
  Host.scatter scatter_S8x128_S2_S__n_01_01_0 (fun _ b => b)
    (Host.scatter scatter_S8x128_S2_S5_0_1_01_0 (fun _ b => b)
      (Host.scatter scatter_S8x128_S2_S5_0_1_01_0 (fun _ b => b)
        (Host.scatter scatter_S8x128_S2_S5x10_01_n_01_0 (fun _ b => b) zeroSlab (startIdx 0#32 0#32) w1)
        (startIdx 0#32 10#32) b1)
      (startIdx 0#32 11#32) (shapeCast S5 w2 shapeCasts_S1x5_S5))
    (startIdx 0#32 12#32) (shapeCast S_ b2 shapeCasts_S1_S_)

variable (w1 : FVec Ideal S5x10 .f32) (b1 : FVec Ideal S5 .f32) (w2 : FVec Ideal S1x5 .f32) (b2 : FVec Ideal S1 .f32)

/-- The slab at an entry, the four scatters read last first. -/
theorem slab_apply (k : S8x128.Idx) :
    slab w1 b1 w2 b2 k
      = if (k 0).val = 0 ∧ (k 1).val = 12 then shapeCast S_ b2 shapeCasts_S1_S_ ix0
        else if h : (k 0).val < 5 ∧ (k 1).val = 11 then shapeCast S5 w2 shapeCasts_S1x5_S5 (ix1 ⟨(k 0).val, h.1⟩)
        else if h : (k 0).val < 5 ∧ (k 1).val = 10 then b1 (ix1 ⟨(k 0).val, h.1⟩)
        else if h : (k 0).val < 5 ∧ (k 1).val < 10 then w1 (ix2 ⟨(k 0).val, h.1⟩ ⟨(k 1).val, h.2⟩)
        else 0 := by
  unfold slab
  rw [scatter_one_apply _ _ 12 (by omega), scatter_col_apply _ _ 11 (by omega), scatter_col_apply _ _ 10 (by omega),
    scatter_block_apply, zeroSlab_apply]

/-- Rows 0–4, columns 0–9: the first layer's weights. -/
theorem slab_w1 (k : S8x128.Idx) (h0 : (k 0).val < 5) (h1 : (k 1).val < 10) :
    slab w1 b1 w2 b2 k = w1 (ix2 ⟨(k 0).val, h0⟩ ⟨(k 1).val, h1⟩) := by
  rw [slab_apply, if_neg (by omega), dif_neg (by omega), dif_neg (by omega), dif_pos ⟨h0, h1⟩]

/-- Rows 0–4 of column 10: the first layer's biases. -/
theorem slab_b1 (k : S8x128.Idx) (h0 : (k 0).val < 5) (h1 : (k 1).val = 10) :
    slab w1 b1 w2 b2 k = b1 (ix1 ⟨(k 0).val, h0⟩) := by
  rw [slab_apply, if_neg (by omega), dif_neg (by omega), dif_pos ⟨h0, h1⟩]

/-- Rows 0–4 of column 11: the read-out weights. -/
theorem slab_w2 (k : S8x128.Idx) (h0 : (k 0).val < 5) (h1 : (k 1).val = 11) :
    slab w1 b1 w2 b2 k = w2 (ix2 (0 : Fin 1) ⟨(k 0).val, h0⟩) := by
  rw [slab_apply, if_neg (by omega), dif_pos ⟨h0, h1⟩]
  exact shapeCast_1a_a_apply w2 shapeCasts_S1x5_S5 ⟨(k 0).val, h0⟩

/-- Rows 5–7 of column 11 are zero. -/
theorem slab_w2_zero (k : S8x128.Idx) (h0 : 5 ≤ (k 0).val) (h1 : (k 1).val = 11) : slab w1 b1 w2 b2 k = 0 := by
  rw [slab_apply, if_neg (by omega), dif_neg (by omega), dif_neg (by omega), dif_neg (by omega)]

/-- The entry `(0, 12)`: the read-out bias. -/
theorem slab_b2 (k : S8x128.Idx) (h0 : (k 0).val = 0) (h1 : (k 1).val = 12) :
    slab w1 b1 w2 b2 k = b2 (ix1 (0 : Fin 1)) := by
  rw [slab_apply, if_pos ⟨h0, h1⟩]
  refine shapeCast_apply b2 shapeCasts_S1_S_ ix0 (ix1 (0 : Fin 1)) ?_
  have l1 : (S1.rowMajor (ix1 (0 : Fin 1))).val < 1 := (S1.rowMajor (ix1 (0 : Fin 1))).isLt
  have l0 : (S_.rowMajor ix0).val < 1 := (S_.rowMajor ix0).isLt
  omega

end Cert.ReferenceIdeal.RefValue

end
-- ==== Proof.RefSlabV.lean ====
/-
  What the region finds in the slab's buffer: the four scatters' result over the argument arrays as launched.
-/
import proofs.«153465_g2000604993931757_pallaspilot1_154_16_alg».proof.Proof.Gen.ReferenceIdeal.Frame
import proofs.«153465_g2000604993931757_pallaspilot1_154_16_alg».proof.Proof.RefSlabRead
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem
open Idealize.ShloMosaic.StableHlo

/-- Rewrites each host operation's result at its own buffer to its function's value, and at any other buffer to what
    that buffer held before the operation. -/
macro "results_rw" : tactic =>
  `(tactic| (repeat (first
               | rw [nullary_result] | rw [unary_result] | rw [binary_result] | rw [ternary_result]
               | rw [reshape_result]
               | (rw [nullary_result_ne]; rotate_left; decide)
               | (rw [unary_result_ne]; rotate_left; decide)
               | (rw [binary_result_ne]; rotate_left; decide)
               | (rw [ternary_result_ne]; rotate_left; decide)
               | (rw [reshape_result_ne]; rotate_left; decide))))

variable (m : (ℓ : Loc nD τ sig) → Buf (Elt Ideal) ℓ)

set_option maxHeartbeats 2000000 in
/-- The slab's buffer, when the region is entered, holds the slab of the four parameter arrays as launched. -/
theorem V_slab (c : Dev nD) :
    (V m c main_v18 : S8x128.Idx → EReal)
      = slab (m ((c : Thread nD τ).loc main_arg1)) (m ((c : Thread nD τ).loc main_arg2))
          (m ((c : Thread nD τ).loc main_arg3)) (m ((c : Thread nD τ).loc main_arg4)) := by
  dsimp only [Gen.V, Gen.hostOps0]
  after_results_simp
  results_rw
  rfl

end Cert.ReferenceIdeal.RefValue

end
-- ==== Proof.RefPay.lean ====
/-
  The body's arithmetic read at one output column: for every column `q` of the block, the stored value is
  the sum over the eight slab rows `r` of `max (∑ k, A[r, k] · x[k, q] + bias[r, 0]) 0 · w[r, 0]`, plus the
  scalar offset, where `A`, `bias`, `w`, `offset` are the four pieces loaded from the parameter slab.
-/
import proofs.«153465_g2000604993931757_pallaspilot1_154_16_alg».proof.Proof.Gen.ReferenceIdeal.Skeleton
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.ReferenceIdeal.RefValue

open Cert.ReferenceIdeal Cert.ReferenceIdeal.Gen Idealize.ShloMosaic Idealize.ShloMosaic.ValueIdx

/-- The matrix product of an 8×10 by a 10×65536 matrix with a zero accumulator, at an entry. -/
theorem matmul_entry (A : FVec Ideal S8x10 .f32) (X : FVec Ideal S10x65536 .f32) (r : Fin 8) (q : Fin 65536) :
    matmul dot_S8x10_S10x65536_S8x65536_1_0_0_1_n_n none A X (constant (F := Ideal) S8x65536 .f32 0x00000000#32) (ix2 r q)
      = ∑ k : Fin 10, A (ix2 r k) * X (ix2 k q) := by
  show FloatOps.matmul _ none A X _ (ix2 r q) = _
  rw [Ideal.matmul_constant_zero_apply,
    ← Equiv.sum_comp (contrEquiv1 dot_S8x10_S10x65536_S8x65536_1_0_0_1_n_n 10 rfl rfl).symm]
  refine Finset.sum_congr rfl fun c _ => ?_
  have c2 := contrEquiv1_symm_val dot_S8x10_S10x65536_S8x65536_1_0_0_1_n_n 10 rfl rfl c
  have l2 : dot_S8x10_S10x65536_S8x65536_1_0_0_1_n_n.lhsIdx (ix2 r q) ((contrEquiv1 _ 10 rfl rfl).symm c) = ix2 r c := by
    funext ax; apply Fin.ext
    match ax with
    | ⟨0, _⟩ => simp [DotDims.lhsIdx, dot_S8x10_S10x65536_S8x65536_1_0_0_1_n_n]; rfl
    | ⟨1, _⟩ => simp [DotDims.lhsIdx, dot_S8x10_S10x65536_S8x65536_1_0_0_1_n_n]; exact c2
  have r2 : dot_S8x10_S10x65536_S8x65536_1_0_0_1_n_n.rhsIdx (ix2 r q) ((contrEquiv1 _ 10 rfl rfl).symm c) = ix2 c q := by
    funext ax; apply Fin.ext
    match ax with
    | ⟨0, _⟩ => simp [DotDims.rhsIdx, dot_S8x10_S10x65536_S8x65536_1_0_0_1_n_n]; exact c2
    | ⟨1, _⟩ => simp [DotDims.rhsIdx, dot_S8x10_S10x65536_S8x65536_1_0_0_1_n_n]; rfl
  rw [l2, r2]

/-- A column `[8, 1]` broadcast along the lanes reads, at `(r, q)`, the column's entry `r`. -/
theorem bcast_col_entry (v : FVec Ideal S8x1 .f32) (r : Fin 8) (q : Fin 65536) :
    broadcastTo S8x65536 v broadcasts_S8x1_S8x65536 (ix2 r q) = v (ix2 r (0 : Fin 1)) := by
  refine broadcastTo_apply v broadcasts_S8x1_S8x65536 (ix2 r q) (ix2 r (0 : Fin 1)) fun ax => ?_
  match ax with
  | ⟨0, _⟩ => rfl
  | ⟨1, _⟩ => rfl

/-- A `[1, 1]` array broadcast along the lanes reads its one entry everywhere. -/
theorem bcast_one_entry (v : FVec Ideal S1x1 .f32) (u : Fin 1) (q : Fin 65536) :
    broadcastTo S1x65536 v broadcasts_S1x1_S1x65536 (ix2 u q) = v (ix2 (0 : Fin 1) (0 : Fin 1)) := by
  refine broadcastTo_apply v broadcasts_S1x1_S1x65536 (ix2 u q) (ix2 (0 : Fin 1) (0 : Fin 1)) fun ax => ?_
  match ax with
  | ⟨0, _⟩ => rfl
  | ⟨1, _⟩ => rfl

/-- The sum over the eight rows of an `[8, 65536]` array, at column `q`. -/
theorem rowsum_entry (src : FVec Ideal S8x65536 .f32) (hφ : FKind.Formats FTy.f32)
    (hacc : (0x00000000#32 : BitVec 32) = 0x00000000#32) (q : Fin 65536) :
    multiReduction (F := Ideal) .add [0] S65536 src 0x00000000#32 reduces_S8x65536_S65536 hφ hacc (ix1 q)
      = ∑ r : Fin 8, src (ix2 r q) := by
  refine (Ideal.multiReduction_add_single src 0x00000000#32 reduces_S8x65536_S65536 hφ hacc (ix1 q)).trans ?_
  refine Finset.sum_congr rfl fun r _ => congrArg src ?_
  funext ax; apply Fin.ext
  match ax with
  | ⟨0, _⟩ => rfl
  | ⟨1, _⟩ => rfl

/-- THE BODY'S RESULT AT A COLUMN: with `A`, `bias`, `w`, `off` the four loaded pieces of the parameter slab and `X` the
    feature block, the stored row at column `q` is `∑ r, max (∑ k, A[r,k]·X[k,q] + bias[r,0]) 0 · w[r,0]`, plus `off[0,0]`. -/
theorem pay_entry (X : FVec Ideal S10x65536 .f32) (A : FVec Ideal S8x10 .f32) (bias w : FVec Ideal S8x1 .f32)
    (off : FVec Ideal S1x1 .f32) (u : Fin 1) (q : Fin 65536) :
    k0_pay1 X A bias w off (ix2 u q)
      = (∑ r : Fin 8, max ((∑ k : Fin 10, A (ix2 r k) * X (ix2 k q)) + bias (ix2 r (0 : Fin 1))) 0 * w (ix2 r (0 : Fin 1)))
        + off (ix2 (0 : Fin 1) (0 : Fin 1)) := by
  unfold k0_pay1
  simp only [shapeCast_self]
  rw [addf_apply, bcast_one_entry, shapeCast_a_1a_apply]
  refine congrArg (· + off (ix2 (0 : Fin 1) (0 : Fin 1))) ?_
  refine (rowsum_entry _ _ _ q).trans ?_
  refine Finset.sum_congr rfl fun r _ => ?_
  rw [mulf_apply, maximumf_apply, addf_apply, bcast_col_entry, bcast_col_entry, matmul_entry, broadcast_apply]
  show max _ (Ideal.ofBits .f32 0x00000000#32) * _ = _
  rw [Ideal.ofBits_zero_f32]

end Cert.ReferenceIdeal.RefValue

end
-- ==== Proof.RefNet.lean ====
/-
  The body's result at a column is the network's output there, once the four loaded pieces of the slab are the
  parameters (rows 5–7 of the read-out column being zero) and the feature block's column is the array's:
  the sum over eight rows is the sum over the five units — the other three terms are a product with zero — and
  each unit's term is the specification's with the two factors exchanged.
-/
import proofs.«153465_g2000604993931757_pallaspilot1_154_16_alg».proof.Proof.RefPay
import proofs.«153465_g2000604993931757_pallaspilot1_154_16_alg».proof.Proof.Spec

noncomputable section

open scoped BigOperators

namespace Cert.ReferenceIdeal.RefValue

open Cert.ReferenceIdeal Cert.ReferenceIdeal.Gen Idealize.ShloMosaic Idealize.ShloMosaic.ValueIdx

/-- A sum over eight rows whose last three terms vanish is the sum over the first five. -/
theorem sum_eight_eq_sum_five (f : Fin 8 → EReal) (g : Fin 5 → EReal)
    (h5 : ∀ j : Fin 5, f ⟨j.val, by omega⟩ = g j) (h0 : ∀ r : Fin 8, 5 ≤ r.val → f r = 0) :
    ∑ r : Fin 8, f r = ∑ j : Fin 5, g j := by
  rw [show (∑ r : Fin 8, f r) = ∑ r : Fin (5 + 3), f r from rfl, Fin.sum_univ_add]
  rw [Finset.sum_eq_zero (s := Finset.univ) (f := fun i : Fin 3 => f (Fin.natAdd 5 i)) fun i _ => h0 _ (by simp [Fin.natAdd]),
    add_zero]
  exact Finset.sum_congr rfl fun j _ => h5 j

/-- THE BODY'S RESULT IS THE NETWORK: `A`, `bias`, `w`, `off` the loaded pieces, `X` the feature block; `b` the batch column
    of the array that block column `q` is. -/
theorem net_entry (X : FVec Ideal S10x65536 .f32) (A : FVec Ideal S8x10 .f32) (bias w : FVec Ideal S8x1 .f32)
    (off : FVec Ideal S1x1 .f32)
    (x : FVec Ideal ⟨2, ![10, 2097152]⟩ .f32) (w1 : FVec Ideal ⟨2, ![5, 10]⟩ .f32) (b1 : FVec Ideal ⟨1, ![5]⟩ .f32)
    (w2 : FVec Ideal ⟨2, ![1, 5]⟩ .f32) (b2 : FVec Ideal ⟨1, ![1]⟩ .f32)
    (b : Fin 2097152) (u : Fin 1) (q : Fin 65536)
    (hA : ∀ (j : Fin 5) (k : Fin 10), A (ix2 (⟨j.val, by omega⟩ : Fin 8) k) = w1 (ix2 j k))
    (hbias : ∀ j : Fin 5, bias (ix2 (⟨j.val, by omega⟩ : Fin 8) (0 : Fin 1)) = b1 (ix1 j))
    (hw : ∀ j : Fin 5, w (ix2 (⟨j.val, by omega⟩ : Fin 8) (0 : Fin 1)) = w2 (ix2 (0 : Fin 1) j))
    (hw0 : ∀ r : Fin 8, 5 ≤ r.val → w (ix2 r (0 : Fin 1)) = 0)
    (hoff : off (ix2 (0 : Fin 1) (0 : Fin 1)) = b2 (ix1 (0 : Fin 1)))
    (hX : ∀ k : Fin 10, X (ix2 k q) = x (ix2 k b)) :
    k0_pay1 X A bias w off (ix2 u q) = Cert.Spec.out x w1 b1 w2 b2 (ix2 u b) := by
  rw [pay_entry, hoff]
  show _ = (∑ j : Fin 5, w2 (ix2 0 j) * Cert.Spec.hidden x w1 b1 j b) + b2 (ix1 0)
  refine congrArg (· + b2 (ix1 (0 : Fin 1))) ?_
  refine sum_eight_eq_sum_five _ _ (fun j => ?_) (fun r hr => ?_)
  · show max ((∑ k : Fin 10, A (ix2 (⟨j.val, _⟩ : Fin 8) k) * X (ix2 k q)) + bias (ix2 (⟨j.val, _⟩ : Fin 8) (0 : Fin 1))) 0
        * w (ix2 (⟨j.val, _⟩ : Fin 8) (0 : Fin 1)) = _
    rw [hbias, hw, mul_comm]
    unfold Cert.Spec.hidden
    refine congrArg (fun s => w2 (ix2 (0 : Fin 1) j) * max (s + b1 (ix1 j)) 0) ?_
    exact Finset.sum_congr rfl fun k _ => by rw [hA, hX]
  · show _ * w (ix2 r (0 : Fin 1)) = 0
    rw [hw0 r hr, mul_zero]

end Cert.ReferenceIdeal.RefValue

end
-- ==== Proof.RefRun.lean ====
/-
  The reference's run, read: after the run the result array holds the network's output `Cert.Spec.out` of the five
  argument arrays, and the arguments are unchanged. Each grid point `t` writes back columns `65536·t … 65536·t + 65535`
  of that output: the slab's window is the whole slab at every point, the feature window's block is the same columns
  of the feature array, and the body's result at a column is the network's output there. The 32 blocks cover the row.
-/
import proofs.«153465_g2000604993931757_pallaspilot1_154_16_alg».proof.Proof.Gen.ReferenceIdeal.Value
import proofs.«153465_g2000604993931757_pallaspilot1_154_16_alg».proof.Proof.RefSlabV
import proofs.«153465_g2000604993931757_pallaspilot1_154_16_alg».proof.Proof.RefNet
import Idealize.ShloMosaic.Lib.Pipeline.Value

noncomputable section

namespace Cert.ReferenceIdeal.RefValue

open Cert.ReferenceIdeal Cert.ReferenceIdeal.Gen Cert.ReferenceIdeal.Value
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-! ## The four pieces loaded from the slab -/

/-- The `[8, 10]` piece at `(0, 0)`. -/
theorem ld_A (P : Vec Ideal S8x128 .f32) (r : Fin 8) (k : Fin 10) :
    (View.ld P r0_1 : Vec Ideal S8x10 .f32) (ix2 r k) = P (ix2 r (⟨k.val, by omega⟩ : Fin 128)) := by
  show P (r0_1.idx (ix2 r k)) = _
  refine congrArg P (funext fun a => Fin.ext ?_)
  match a with
  | ⟨0, _⟩ => show 0 + 1 * r.val = r.val; omega
  | ⟨1, _⟩ => show 0 + 1 * k.val = k.val; omega

/-- Column 10. -/
theorem ld_col10 (P : Vec Ideal S8x128 .f32) (r : Fin 8) (z : Fin 1) :
    (View.ld P r0_2 : Vec Ideal S8x1 .f32) (ix2 r z) = P (ix2 r (10 : Fin 128)) := by
  show P (r0_2.idx (ix2 r z)) = _
  refine congrArg P (funext fun a => Fin.ext ?_)
  match a with
  | ⟨0, _⟩ => show 0 + 1 * r.val = r.val; omega
  | ⟨1, _⟩ => show 10 + 1 * z.val = 10; omega

/-- Column 11. -/
theorem ld_col11 (P : Vec Ideal S8x128 .f32) (r : Fin 8) (z : Fin 1) :
    (View.ld P r0_3 : Vec Ideal S8x1 .f32) (ix2 r z) = P (ix2 r (11 : Fin 128)) := by
  show P (r0_3.idx (ix2 r z)) = _
  refine congrArg P (funext fun a => Fin.ext ?_)
  match a with
  | ⟨0, _⟩ => show 0 + 1 * r.val = r.val; omega
  | ⟨1, _⟩ => show 11 + 1 * z.val = 11; omega

/-- The entry `(0, 12)`. -/
theorem ld_off (P : Vec Ideal S8x128 .f32) (u z : Fin 1) :
    (View.ld P r0_4 : Vec Ideal S1x1 .f32) (ix2 u z) = P (ix2 (0 : Fin 8) (12 : Fin 128)) := by
  show P (r0_4.idx (ix2 u z)) = _
  refine congrArg P (funext fun a => Fin.ext ?_)
  match a with
  | ⟨0, _⟩ => show 0 + 1 * u.val = 0; omega
  | ⟨1, _⟩ => show 12 + 1 * z.val = 12; omega

/-! ## One point -/

/-- THE BODY AT ONE POINT: on the slab of the parameters and a feature block whose column `q` is column `b` of the
    feature array, the body's result at column `q` is the network's output at `b`. -/
theorem point_entry (P : Vec Ideal S8x128 .f32) (X : FVec Ideal S10x65536 .f32)
    (x : FVec Ideal ⟨2, ![10, 2097152]⟩ .f32) (w1 : FVec Ideal ⟨2, ![5, 10]⟩ .f32) (b1 : FVec Ideal ⟨1, ![5]⟩ .f32)
    (w2 : FVec Ideal ⟨2, ![1, 5]⟩ .f32) (b2 : FVec Ideal ⟨1, ![1]⟩ .f32) (hP : P = slab w1 b1 w2 b2)
    (b : Fin 2097152) (u : Fin 1) (q : Fin 65536) (hX : ∀ k : Fin 10, X (ix2 k q) = x (ix2 k b)) :
    k0_pay1 X (View.ld P r0_1) (View.ld P r0_2) (View.ld P r0_3) (View.ld P r0_4) (ix2 u q)
      = Cert.Spec.out x w1 b1 w2 b2 (ix2 u b) := by
  subst hP
  refine net_entry X _ _ _ _ x w1 b1 w2 b2 b u q ?_ ?_ ?_ ?_ ?_ hX
  · intro j k
    rw [ld_A]
    exact slab_w1 w1 b1 w2 b2 _ j.isLt k.isLt
  · intro j
    rw [ld_col10]
    exact slab_b1 w1 b1 w2 b2 _ j.isLt rfl
  · intro j
    rw [ld_col11]
    exact slab_w2 w1 b1 w2 b2 _ j.isLt rfl
  · intro r hr
    rw [ld_col11]
    exact slab_w2_zero w1 b1 w2 b2 _ hr rfl
  · rw [ld_off]
    exact slab_b2 w1 b1 w2 b2 _ rfl rfl

/-! ## The windows' blocks -/

/-- The printed index maps, decided over the grid: the slab's window stays at block `(0, 0)`; the feature window and the
    output window are at block `(0, t)`. -/
theorem idx_facts : ∀ t : Fin cfg0.N, win0_0.index t (0 : Fin 2) = 0 ∧ win0_0.index t (1 : Fin 2) = 0
    ∧ win0_1.index t (0 : Fin 2) = 0 ∧ win0_1.index t (1 : Fin 2) = t.val
    ∧ win0_2.index t (0 : Fin 2) = 0 ∧ win0_2.index t (1 : Fin 2) = t.val :=
  (by decide +kernel : ∀ t : Fin grid0.N, _)

/-- The slab's window is, at every point, the slab of the four parameter arrays. -/
theorem iblk0_eq (c : Dev nD) (t : Fin cfg0.N) :
    (iblk m c 0 t : FVec Ideal S8x128 .f32)
      = slab (m ((c : Thread nD τ).loc main_arg1)) (m ((c : Thread nD τ).loc main_arg2))
          (m ((c : Thread nD τ).loc main_arg3)) (m ((c : Thread nD τ).loc main_arg4)) := by
  rw [← V_slab m c]
  obtain ⟨e0, e1, -⟩ := idx_facts t
  refine funext fun (y : S8x128.Idx) => ?_
  show V m c main_v18 (((cfg0.win 0).blk t).view.emb y) = V m c main_v18 y
  refine congrArg (V m c main_v18) (funext fun a => Fin.ext ?_)
  match a with
  | ⟨0, _⟩ => show win0_0.index t (0 : Fin 2) * 8 + 1 * (y 0).val = (y 0).val; omega
  | ⟨1, _⟩ => show win0_0.index t (1 : Fin 2) * 128 + 1 * (y 1).val = (y 1).val; omega

/-- The feature window's block at point `t` is columns `65536·t …` of the feature array. -/
theorem iblk1_apply (c : Dev nD) (t : Fin cfg0.N) (k : Fin 10) (q : Fin 65536) (b : Fin 2097152)
    (hb : b.val = t.val * 65536 + q.val) :
    (iblk m c 1 t : FVec Ideal S10x65536 .f32) (ix2 k q)
      = (m ((c : Thread nD τ).loc main_arg0) : FVec Ideal S10x2097152 .f32) (ix2 k b) := by
  rw [← V_main_arg0 m c]
  obtain ⟨-, -, e2, e3, -⟩ := idx_facts t
  show V m c main_arg0 (((cfg0.win 1).blk t).view.emb (ix2 k q)) = V m c main_arg0 (ix2 k b)
  refine congrArg (V m c main_arg0) (funext fun a => Fin.ext ?_)
  match a with
  | ⟨0, _⟩ => show win0_1.index t (0 : Fin 2) * 10 + 1 * k.val = k.val; omega
  | ⟨1, _⟩ => show win0_1.index t (1 : Fin 2) * 65536 + 1 * q.val = b.val; omega

/-! ## What each point writes back, the cover, the array -/

/-- WHAT POINT `t` WRITES BACK is block `t` of the network's output of the argument arrays. -/
theorem flushed_eq (c : Dev nD) (t : Fin cfg0.N) :
    (dats m 0 c).flushed 2 t = ((cfg0.win 2).blk t).view.read (Elt Ideal)
      (Cert.Spec.out (m ((c : Thread nD τ).loc main_arg0)) (m ((c : Thread nD τ).loc main_arg1))
        (m ((c : Thread nD τ).loc main_arg2)) (m ((c : Thread nD τ).loc main_arg3)) (m ((c : Thread nD τ).loc main_arg4))) := by
  rw [Value.flushed2]
  unfold out0_2
  rw [View.canon_unit_zero hz]
  simp only [View.ld_unit_zero (S := S10x65536) hz]
  obtain ⟨-, -, -, -, e4, e5⟩ := idx_facts t
  have hN : cfg0.N = 32 := N_0
  have htl : t.val < 32 := by have := t.isLt; omega
  refine funext fun (j : S1x65536.Idx) => ?_
  obtain ⟨u, q, rfl⟩ : ∃ (u : Fin 1) (q : Fin 65536), j = ix2 u q := ⟨j 0, j 1, eq_ix2 j⟩
  have hb : t.val * 65536 + q.val < 2097152 := by have := q.isLt; omega
  have hemb : ((cfg0.win 2).blk t).view.emb (ix2 u q) = ix2 u (⟨t.val * 65536 + q.val, hb⟩ : Fin 2097152) := by
    refine funext fun a => Fin.ext ?_
    match a with
    | ⟨0, _⟩ => show win0_2.index t (0 : Fin 2) * 1 + 1 * u.val = u.val; omega
    | ⟨1, _⟩ => show win0_2.index t (1 : Fin 2) * 65536 + 1 * q.val = t.val * 65536 + q.val; omega
  show k0_pay1 (iblk m c 1 t) (View.ld (iblk m c 0 t) r0_1) (View.ld (iblk m c 0 t) r0_2) (View.ld (iblk m c 0 t) r0_3)
      (View.ld (iblk m c 0 t) r0_4) (ix2 u q) = Cert.Spec.out _ _ _ _ _ (((cfg0.win 2).blk t).view.emb (ix2 u q))
  rw [hemb]
  exact point_entry (iblk m c 0 t) (iblk m c 1 t) _ _ _ _ _ (iblk0_eq m c t) _ u q
    (fun k => iblk1_apply m c t k q _ rfl)

/-- An index of the result array is in point `t`'s block iff each coordinate is in the block's range on its axis. -/
theorem mem_blk (t : Fin cfg0.N) (i : S1x2097152.Idx) :
    i ∈ ((cfg0.win 2).blk t).view.set ↔ ∀ a : Fin 2, win0_2.index t a * S1x65536.size a ≤ (i a).val
      ∧ (i a).val < win0_2.index t a * S1x65536.size a + S1x65536.size a := by
  show i ∈ ((View.whole main_v19).slice (win0_2.rect t)).set ↔ _
  rw [View.set_slice_whole, Rect.mem_set_unit]
  exact Iff.rfl

/-- Column `b` of the result is in the block of point `b / 65536`. -/
theorem cover (i : S1x2097152.Idx) :
    ∃ t : Fin cfg0.N, (cfg0.win 2).flush t = true ∧ i ∈ ((cfg0.win 2).blk t).view.set := by
  have hN : cfg0.N = 32 := N_0
  have hi0 : (i 0).val < 1 := (i 0).isLt
  have hi1 : (i 1).val < 2097152 := (i 1).isLt
  have ht : (i 1).val / 65536 < cfg0.N := by rw [hN]; omega
  refine ⟨⟨(i 1).val / 65536, ht⟩, flush0_2 _, ?_⟩
  rw [mem_blk]
  obtain ⟨-, -, -, -, e4, e5⟩ := idx_facts ⟨(i 1).val / 65536, ht⟩
  have e5' : win0_2.index ⟨(i 1).val / 65536, ht⟩ (1 : Fin 2) = (i 1).val / 65536 := e5
  intro a
  match a with
  | ⟨0, _⟩ =>
    show win0_2.index ⟨(i 1).val / 65536, ht⟩ (0 : Fin 2) * 1 ≤ (i 0).val
      ∧ (i 0).val < win0_2.index ⟨(i 1).val / 65536, ht⟩ (0 : Fin 2) * 1 + 1
    omega
  | ⟨1, _⟩ =>
    show win0_2.index ⟨(i 1).val / 65536, ht⟩ (1 : Fin 2) * 65536 ≤ (i 1).val
      ∧ (i 1).val < win0_2.index ⟨(i 1).val / 65536, ht⟩ (1 : Fin 2) * 65536 + 65536
    omega

/-- THE ARRAY after the run: the network's output of the argument arrays. -/
theorem final (c : Dev nD) :
    (dats m 0 c).arrAt 2 cfg0.N
      = Cert.Spec.out (m ((c : Thread nD τ).loc main_arg0)) (m ((c : Thread nD τ).loc main_arg1))
          (m ((c : Thread nD τ).loc main_arg2)) (m ((c : Thread nD τ).loc main_arg3)) (m ((c : Thread nD τ).loc main_arg4)) :=
  (dats m 0 c).arrAt_eq_of_cover 2 _ (fun t _ => flushed_eq m c t) cover

/-! ## The run, read -/

/-- The reference's run: the result array at the network's output of the arguments, the arguments unchanged. -/
theorem run : θ_run (defs (F := Ideal)) (onTc (τ := τ) (main (F := Ideal))) ⟨m, fun _ => 0, ρ⟩ fun r => ∀ c : Dev nD,
      r.2.mem ((c : Thread nD τ).loc main_v19)
        = Cert.Spec.out (m ((c : Thread nD τ).loc main_arg0)) (m ((c : Thread nD τ).loc main_arg1))
            (m ((c : Thread nD τ).loc main_arg2)) (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Value.run_blocks m ρ)

end Cert.ReferenceIdeal.RefValue

end
-- ==== Proof.lean ====
/-
  The certificate of the streamed two-layer network against its packed-slab reference.

  Both programs compute, for every batch column `b`,

      out[0, b] = (∑ j < 5, w2[0, j] · max (∑ k < 10, w1[j, k] · x[k, b] + b1[j]) 0) + b2[0]

  over the extended reals.  The kernel reads the activation array through two windows — feature rows 0..7 and rows
  8..9 — and adds the two partial products; the reference packs the parameters into one 8x128 slab whose three
  spare rows are zero and sums over all eight rows, the spare ones contributing `max (0 + 0) 0 · 0 = 0`.  Neither
  identity needs the inputs to be finite: sums are regrouped, never distributed.

  The three frames: the kernel's two programs run by the pipelined-region launch with the activation array lent in
  halves to its two windows; the reference's frame is the generated one.  The idealization rewrote nothing.
-/
import proofs.«153465_g2000604993931757_pallaspilot1_154_16_alg».proof.Defs
import proofs.«153465_g2000604993931757_pallaspilot1_154_16_alg».proof.Proof.Gen.Kernel
import proofs.«153465_g2000604993931757_pallaspilot1_154_16_alg».proof.Proof.Gen.KernelIdeal
import proofs.«153465_g2000604993931757_pallaspilot1_154_16_alg».proof.Proof.Gen.ReferenceIdeal
import proofs.«153465_g2000604993931757_pallaspilot1_154_16_alg».proof.Proof.Gen.ReferenceIdeal.Frame
import proofs.«153465_g2000604993931757_pallaspilot1_154_16_alg».proof.Proof.Gen.Pre_finite_inputs
import proofs.«153465_g2000604993931757_pallaspilot1_154_16_alg».proof.Proof.KernelRun
import proofs.«153465_g2000604993931757_pallaspilot1_154_16_alg».proof.Proof.KernelIdealValue
import proofs.«153465_g2000604993931757_pallaspilot1_154_16_alg».proof.Proof.RefRun
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Hand.frame (F := Bits) m ρ
theorem frame_ki : Cert.frame_KernelIdeal := fun m ρ _ => Cert.KernelIdeal.Hand.frame (F := Ideal) m ρ
theorem frame_ri : Cert.frame_ReferenceIdeal := fun m ρ _ => Cert.ReferenceIdeal.Gen.frame m ρ

/-- Run from memories agreeing on the five arguments, both idealized programs end with the result row at the
    specification's function of those arguments. -/
theorem algebraic : Cert.algebraic_KernelIdeal_ReferenceIdeal := by
  intro m ρ m' ρ' _ hagree
  refine ⟨fun c => Cert.KernelIdeal.Hand.specOut m c, Cert.KernelIdeal.Hand.run m ρ, ?_⟩
  refine (θ_run Cert.ReferenceIdeal.defs _ _).mono (fun _ h c => ⟨(h c).1.trans ?_, (h c).2⟩) (Cert.ReferenceIdeal.RefValue.run m' ρ')
  rw [(hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
